-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x64x128x128 : Shape := ⟨5, ![16, 1, 64, 128, 128]⟩
abbrev S_ : Shape := ⟨0, ![]⟩

class Facts : Prop where
  bcast_S_S16x1x64x128x128 : S_.BroadcastsInDim S16x1x64x128x128 (![] : Fin 0 → Fin S16x1x64x128x128.rank)
  reducesTo_S16x1x64x128x128_S_d0_1_2_3_4 : S16x1x64x128x128.ReducesTo [0, 1, 2, 3, 4] S_
  h_S_ : 0 < S_.numel

variable [Facts]

def fn {F : FTy → Type} [FloatOps F] (main_arg0 : FVec F S16x1x64x128x128 .f32) (main_arg1 : FVec F S16x1x64x128x128 .f32) (main_arg2 : IVec S16x1x64x128x128 32) (main_arg3 : IVec S16x1x64x128x128 32) : IVec S_ 1 :=
  let main_v0 : FVec F S16x1x64x128x128 .f32 := Host.absf main_arg0
  let main_cst : FVec F S_ .f32 := constant S_ .f32 0x7F800000#32
  let main_v1 : FVec F S16x1x64x128x128 .f32 := broadcastInDim S16x1x64x128x128 ![] bcast_S_S16x1x64x128x128 main_cst
  let main_v2 : IVec S16x1x64x128x128 1 := cmpf .olt main_v0 main_v1
  let main_c : IVec S_ 1 := constantI S_ 1 1#1
  let main_v3 : IVec S_ 1 := (fun x v => Host.reduce IntOp.andi x v reducesTo_S16x1x64x128x128_S_d0_1_2_3_4 h_S_) main_v2 main_c
  let main_v4 : FVec F S16x1x64x128x128 .f32 := Host.absf main_arg1
  let main_cst_0 : FVec F S_ .f32 := constant S_ .f32 0x7F800000#32
  let main_v5 : FVec F S16x1x64x128x128 .f32 := broadcastInDim S16x1x64x128x128 ![] bcast_S_S16x1x64x128x128 main_cst_0
  let main_v6 : IVec S16x1x64x128x128 1 := cmpf .olt main_v4 main_v5
  let main_c_1 : IVec S_ 1 := constantI S_ 1 1#1
  let main_v7 : IVec S_ 1 := (fun x v => Host.reduce IntOp.andi x v reducesTo_S16x1x64x128x128_S_d0_1_2_3_4 h_S_) main_v6 main_c_1
  let main_v8 : IVec S_ 1 := andi main_v3 main_v7
  main_v8
-- ==== Kernel.lean ====
abbrev S16x1x64x128x128 : Shape := ⟨5, ![16, 1, 64, 128, 128]⟩
abbrev S16x8x128 : Shape := ⟨3, ![16, 8, 128]⟩
abbrev S1x1x32x128x128 : Shape := ⟨5, ![1, 1, 32, 128, 128]⟩
abbrev S1x8x128 : Shape := ⟨3, ![1, 8, 128]⟩
abbrev S128x128 : Shape := ⟨2, ![128, 128]⟩
abbrev S8x128 : Shape := ⟨2, ![8, 128]⟩
abbrev S32x128x128 : Shape := ⟨3, ![32, 128, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x126 : Shape := ⟨2, ![1, 126]⟩
abbrev S1x128 : Shape := ⟨2, ![1, 128]⟩
abbrev S7x128 : Shape := ⟨2, ![7, 128]⟩
abbrev S16x1x1 : Shape := ⟨3, ![16, 1, 1]⟩
abbrev S16 : Shape := ⟨1, ![16]⟩
abbrev S_ : Shape := ⟨0, ![]⟩

abbrev nBuf : Space → Nat
  | .hbm => 15
  | .vmem => 16
  | .smem => 0
  | _ => 0

abbrev bufTy : (tb : Table) → Fin (tcTables nBuf tb) → BufTy
  | .hbm, ⟨0, _⟩ => ⟨S16x1x64x128x128, .f32⟩
  | .hbm, ⟨1, _⟩ => ⟨S16x1x64x128x128, .f32⟩
  | .hbm, ⟨2, _⟩ => ⟨S16x1x64x128x128, .i32⟩
  | .hbm, ⟨3, _⟩ => ⟨S16x1x64x128x128, .i32⟩
  | .hbm, ⟨4, _⟩ => ⟨S16x8x128, .f32⟩
  | .hbm, ⟨5, _⟩ => ⟨S16x1x1, .f32⟩
  | .hbm, ⟨6, _⟩ => ⟨S16, .f32⟩
  | .hbm, ⟨7, _⟩ => ⟨S16x1x1, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x1x32x128x128, .f32⟩
  | .local _ .vmem, ⟨1, _⟩ => ⟨S1x1x32x128x128, .f32⟩
  | .local _ .vmem, ⟨2, _⟩ => ⟨S1x1x32x128x128, .f32⟩
  | .local _ .vmem, ⟨3, _⟩ => ⟨S1x1x32x128x128, .f32⟩
  | .local _ .vmem, ⟨4, _⟩ => ⟨S1x1x32x128x128, .i32⟩
  | .local _ .vmem, ⟨5, _⟩ => ⟨S1x1x32x128x128, .i32⟩
  | .local _ .vmem, ⟨6, _⟩ => ⟨S1x1x32x128x128, .i32⟩
  | .local _ .vmem, ⟨7, _⟩ => ⟨S1x1x32x128x128, .i32⟩
  | .local _ .vmem, ⟨8, _⟩ => ⟨S1x8x128, .f32⟩
  | .local _ .vmem, ⟨9, _⟩ => ⟨S1x8x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S16x1x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v67 : BitVec 1 := Scalar.cmpi .eq arg1 c1_i32
  let v68 : BitVec 32 := Scalar.extui v67
  let c0_i32_57 : BitVec 32 := 0#32
  let v69 : BitVec 1 := Scalar.cmpi .ne v68 c0_i32_57
  v69

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32x128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x32x128x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x1x32x128x128_S1x1x32x128x128_0_0_0_0_0 : ∀ a, (![0, 0, 0, 0, 0] : Fin 5 → Nat) a + S1x1x32x128x128.size a ≤ S1x1x32x128x128.size a
  h_S1x1x32x128x128 : 0 < S1x1x32x128x128.numel
  shapeCasts_S1x1x32x128x128_S32x128x128 : S1x1x32x128x128.ShapeCasts S32x128x128
  reduces_S32x128x128_S128x128 : S32x128x128.Reduces [0] S128x128
  reduces_S128x128_S128 : S128x128.Reduces [1] S128
  shapeCasts_S128_S128x1 : S128.ShapeCasts S128x1
  reduces_S128x1_S1 : S128x1.Reduces [0] S1
  shapeCasts_S1_S1x1 : S1.ShapeCasts S1x1
  concatenates_S1x1_S1x1_S1x126_S1x128_d1 : Shape.Concatenates [S1x1, S1x1, S1x126] S1x128 1
  concatenates_S1x128_S7x128_S8x128_d0 : Shape.Concatenates [S1x128, S7x128] S8x128 0
  slices_S16x8x128_S16x1x1_0_0_0 : S16x8x128.Slices ![0, 0, 0] S16x1x1
  shapeCasts_S16x1x1_S16 : S16x1x1.ShapeCasts S16
  slices_S16x8x128_S16x1x1_0_0_1 : S16x8x128.Slices ![0, 0, 1] S16x1x1
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x32x128x128.size a ≤ S16x1x64x128x128.size a
  hwx0_0 : ∀ i : grid0.Coords, EltTy.bits .f32 = 32 ∨ (Rect.block (s := S16x1x64x128x128) S1x1x32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32x128x128.size a ≤ S16x1x64x128x128.size a
  hwx0_1 : ∀ i : grid0.Coords, EltTy.bits .f32 = 32 ∨ (Rect.block (s := S16x1x64x128x128) S1x1x32x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32x128x128.size a ≤ S16x1x64x128x128.size a
  hwx0_2 : ∀ i : grid0.Coords, EltTy.bits .i32 = 32 ∨ (Rect.block (s := S16x1x64x128x128) S1x1x32x128x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32x128x128.size a ≤ S16x1x64x128x128.size a
  hwx0_3 : ∀ i : grid0.Coords, EltTy.bits .i32 = 32 ∨ (Rect.block (s := S16x1x64x128x128) S1x1x32x128x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S16x8x128.size a
  hwx0_4 : ∀ i : grid0.Coords, EltTy.bits .f32 = 32 ∨ (Rect.block (s := S16x8x128) S1x8x128.size (cc0_transform_4 i) (hinb0_4 i)).WholeWords (EltTy.packing .f32)

variable [Facts₀]

abbrev win0_0 : Pipeline.Window sig grid0 :=
  Pipeline.Window.ofSpec (Memref.whole main_arg0) S1x1x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x32x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x32x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x32x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S16x1x64x128x128 : Shape := ⟨5, ![16, 1, 64, 128, 128]⟩
abbrev S_ : Shape := ⟨0, ![]⟩
abbrev S16x1 : Shape := ⟨2, ![16, 1]⟩
abbrev S16x1x1x1x1 : Shape := ⟨5, ![16, 1, 1, 1, 1]⟩

abbrev nBuf : Space → Nat
  | .hbm => 97
  | .vmem => 0
  | .smem => 0
  | _ => 0

abbrev bufTy : (tb : Table) → Fin (tcTables nBuf tb) → BufTy
  | .hbm, ⟨0, _⟩ => ⟨S16x1x64x128x128, .f32⟩
  | .hbm, ⟨1, _⟩ => ⟨S16x1x64x128x128, .f32⟩
  | .hbm, ⟨2, _⟩ => ⟨S16x1x64x128x128, .i32⟩
  | .hbm, ⟨3, _⟩ => ⟨S16x1x64x128x128, .i32⟩
  | .hbm, ⟨4, _⟩ => ⟨S_, .f32⟩
  | .hbm, ⟨5, _⟩ => ⟨S16x1x64x128x128, .f32⟩
  | .hbm, ⟨6, _⟩ => ⟨S16x1x64x128x128, .i1⟩
  | .hbm, ⟨7, _⟩ => ⟨S_, .i32⟩
  | .hbm, ⟨8, _⟩ => ⟨S16x1x64x128x128, .i32⟩
  | .hbm, ⟨9, _⟩ => ⟨S16x1x64x128x128, .i1⟩
  | .hbm, ⟨10, _⟩ => ⟨S16x1x64x128x128, .i1⟩
  | .hbm, ⟨11, _⟩ => ⟨S_, .f32⟩
  | .hbm, ⟨12, _⟩ => ⟨S_, .f32⟩
  | .hbm, ⟨13, _⟩ => ⟨S16x1x64x128x128, .f32⟩
  | .hbm, ⟨14, _⟩ => ⟨S16x1x64x128x128, .f32⟩
  | .hbm, ⟨15, _⟩ => ⟨S16x1x64x128x128, .f32⟩
  | .hbm, ⟨16, _⟩ => ⟨S16x1x64x128x128, .f32⟩
  | .hbm, ⟨17, _⟩ => ⟨S_, .f32⟩
  | .hbm, ⟨18, _⟩ => ⟨S16x1x64x128x128, .f32⟩
  | .hbm, ⟨19, _⟩ => ⟨S16x1x64x128x128, .i1⟩
  | .hbm, ⟨20, _⟩ => ⟨S_, .i32⟩
  | .hbm, ⟨21, _⟩ => ⟨S16x1x64x128x128, .i32⟩
  | .hbm, ⟨22, _⟩ => ⟨S16x1x64x128x128, .i1⟩
  | .hbm, ⟨23, _⟩ => ⟨S16x1x64x128x128, .i1⟩
  | .hbm, ⟨24, _⟩ => ⟨S_, .f32⟩
  | .hbm, ⟨25, _⟩ => ⟨S_, .f32⟩
  | .hbm, ⟨26, _⟩ => ⟨S16x1x64x128x128, .f32⟩
  | .hbm, ⟨27, _⟩ => ⟨S16x1x64x128x128, .f32⟩
  | .hbm, ⟨28, _⟩ => ⟨S16x1x64x128x128, .f32⟩
  | .hbm, ⟨29, _⟩ => ⟨S16x1x64x128x128, .f32⟩
  | .hbm, ⟨30, _⟩ => ⟨S_, .f32⟩
  | .hbm, ⟨31, _⟩ => ⟨S16x1, .f32⟩
  | .hbm, ⟨32, _⟩ => ⟨S16x1x1x1x1, .f32⟩
  | .hbm, ⟨33, _⟩ => ⟨S_, .f32⟩
  | .hbm, ⟨34, _⟩ => ⟨S16x1, .f32⟩
  | .hbm, ⟨35, _⟩ => ⟨S16x1x1x1x1, .f32⟩
  | .hbm, ⟨36, _⟩ => ⟨S16x1x64x128x128, .f32⟩
  | .hbm, ⟨37, _⟩ => ⟨S_, .f32⟩
  | .hbm, ⟨38, _⟩ => ⟨S16x1, .f32⟩
  | .hbm, ⟨39, _⟩ => ⟨S16x1x1x1x1, .f32⟩
  | .hbm, ⟨40, _⟩ => ⟨S16x1x64x128x128, .f32⟩
  | .hbm, ⟨41, _⟩ => ⟨S_, .f32⟩
  | .hbm, ⟨42, _⟩ => ⟨S16x1, .f32⟩
  | .hbm, ⟨43, _⟩ => ⟨S16x1x1x1x1, .f32⟩
  | .hbm, ⟨44, _⟩ => ⟨S16x1x64x128x128, .f32⟩
  | .hbm, ⟨45, _⟩ => ⟨S_, .f32⟩
  | .hbm, ⟨46, _⟩ => ⟨S16x1, .f32⟩
  | .hbm, ⟨47, _⟩ => ⟨S16x1x1x1x1, .f32⟩
  | .hbm, ⟨48, _⟩ => ⟨S_, .f32⟩
  | .hbm, ⟨49, _⟩ => ⟨S16x1x1x1x1, .f32⟩
  | .hbm, ⟨50, _⟩ => ⟨S16x1x1x1x1, .f32⟩
  | .hbm, ⟨51, _⟩ => ⟨S_, .f32⟩
  | .hbm, ⟨52, _⟩ => ⟨S16x1x1x1x1, .f32⟩
  | .hbm, ⟨53, _⟩ => ⟨S16x1x1x1x1, .f32⟩
  | .hbm, ⟨54, _⟩ => ⟨S16x1x1x1x1, .f32⟩
  | .hbm, ⟨55, _⟩ => ⟨S16x1x1x1x1, .f32⟩
  | .hbm, ⟨56, _⟩ => ⟨S16x1x1x1x1, .f32⟩
  | .hbm, ⟨57, _⟩ => ⟨S16x1x1x1x1, .f32⟩
  | .hbm, ⟨58, _⟩ => ⟨S16x1x1x1x1, .f32⟩
  | .hbm, ⟨59, _⟩ => ⟨S_, .f32⟩
  | .hbm, ⟨60, _⟩ => ⟨S16x1x1x1x1, .f32⟩
  | .hbm, ⟨61, _⟩ => ⟨S16x1x1x1x1, .f32⟩
  | .hbm, ⟨62, _⟩ => ⟨S16x1x1x1x1, .f32⟩
  | .hbm, ⟨63, _⟩ => ⟨S_, .f32⟩
  | .hbm, ⟨64, _⟩ => ⟨S16x1x1x1x1, .f32⟩
  | .hbm, ⟨65, _⟩ => ⟨S16x1x1x1x1, .f32⟩
  | .hbm, ⟨66, _⟩ => ⟨S16x1x1x1x1, .f32⟩
  | .hbm, ⟨67, _⟩ => ⟨S16x1x1x1x1, .f32⟩
  | .hbm, ⟨68, _⟩ => ⟨S16x1x1x1x1, .f32⟩
  | .hbm, ⟨69, _⟩ => ⟨S_, .f32⟩
  | .hbm, ⟨70, _⟩ => ⟨S16x1x1x1x1, .f32⟩
  | .hbm, ⟨71, _⟩ => ⟨S16x1x1x1x1, .f32⟩
  | .hbm, ⟨72, _⟩ => ⟨S16x1x1x1x1, .f32⟩
  | .hbm, ⟨73, _⟩ => ⟨S_, .f32⟩
  | .hbm, ⟨74, _⟩ => ⟨S16x1x1x1x1, .f32⟩
  | .hbm, ⟨75, _⟩ => ⟨S16x1x1x1x1, .f32⟩
  | .hbm, ⟨76, _⟩ => ⟨S16x1x1x1x1, .f32⟩
  | .hbm, ⟨77, _⟩ => ⟨S16x1x1x1x1, .f32⟩
  | .hbm, ⟨78, _⟩ => ⟨S16x1x1x1x1, .f32⟩
  | .hbm, ⟨79, _⟩ => ⟨S_, .f32⟩
  | .hbm, ⟨80, _⟩ => ⟨S16x1x1x1x1, .f32⟩
  | .hbm, ⟨81, _⟩ => ⟨S16x1x1x1x1, .f32⟩
  | .hbm, ⟨82, _⟩ => ⟨S16x1x1x1x1, .f32⟩
  | .hbm, ⟨83, _⟩ => ⟨S16x1x1x1x1, .f32⟩
  | .hbm, ⟨84, _⟩ => ⟨S16x1x1x1x1, .f32⟩
  | .hbm, ⟨85, _⟩ => ⟨S_, .f32⟩
  | .hbm, ⟨86, _⟩ => ⟨S16x1x1x1x1, .f32⟩
  | .hbm, ⟨87, _⟩ => ⟨S16x1x1x1x1, .f32⟩
  | .hbm, ⟨88, _⟩ => ⟨S16x1x1x1x1, .f32⟩
  | .hbm, ⟨89, _⟩ => ⟨S16x1x1x1x1, .f32⟩
  | .hbm, ⟨90, _⟩ => ⟨S16x1x64x128x128, .f32⟩
  | .hbm, ⟨91, _⟩ => ⟨S16x1x64x128x128, .f32⟩
  | .hbm, ⟨92, _⟩ => ⟨S16x1x64x128x128, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S16x1x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_cst_5 : Ref sig .tc := ⟨.hbm, 25, rfl⟩
abbrev main_call1_v0 : Ref sig .tc := ⟨.hbm, 26, rfl⟩
abbrev main_call1_v1 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_8 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_9 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_10 : Ref sig .tc := ⟨.hbm, 45, rfl⟩
abbrev main_v25 : Ref sig .tc := ⟨.hbm, 46, rfl⟩
abbrev main_v26 : Ref sig .tc := ⟨.hbm, 47, rfl⟩
abbrev main_cst_11 : Ref sig .tc := ⟨.hbm, 48, rfl⟩
abbrev main_v27 : Ref sig .tc := ⟨.hbm, 49, rfl⟩
abbrev main_v28 : Ref sig .tc := ⟨.hbm, 50, rfl⟩
abbrev main_cst_12 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_13 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_14 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_15 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_16 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_17 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_18 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_19 : Ref sig .tc := ⟨.hbm, 93, rfl⟩
abbrev main_v64 : Ref sig .tc := ⟨.hbm, 94, rfl⟩
abbrev main_cst_20 : Ref sig .tc := ⟨.hbm, 95, rfl⟩
abbrev main_v65 : Ref sig .tc := ⟨.hbm, 96, rfl⟩

abbrev nD : Nat := 1
abbrev τ : Topo := Topo.v7x

variable {F : FTy → Type} [FloatOps F]

class Facts₀ : Prop where
  bcast_S_S16x1x64x128x128 : S_.BroadcastsInDim S16x1x64x128x128 (![] : Fin 0 → Fin S16x1x64x128x128.rank)
  reducesTo_S16x1x64x128x128_S16x1_d2_3_4 : S16x1x64x128x128.ReducesTo [2, 3, 4] S16x1
  h_S_ : 0 < S_.numel
  bcast_S16x1_S16x1x1x1x1_0_1 : S16x1.BroadcastsInDim S16x1x1x1x1 (![0, 1] : Fin 2 → Fin S16x1x1x1x1.rank)
  bcast_S_S16x1x1x1x1 : S_.BroadcastsInDim S16x1x1x1x1 (![] : Fin 0 → Fin S16x1x1x1x1.rank)
  bcast_S16x1x1x1x1_S16x1x64x128x128_0_1_2_3_4 : S16x1x1x1x1.BroadcastsInDim S16x1x64x128x128 (![0, 1, 2, 3, 4] : Fin 5 → Fin S16x1x64x128x128.rank)
  reducesTo_S16x1x64x128x128_S_d0_1_2_3_4 : S16x1x64x128x128.ReducesTo [0, 1, 2, 3, 4] S_

variable [Facts₀]

class Facts : Prop extends Facts₀ where

variable [Facts]
-- ==== Proof.Finite.lean ====
/-
  The precondition, read back: when `finite_inputs` holds of the four argument arrays, every entry of the two
  float arrays is a real number.  The predicate is the conjunction of two `all`-reductions of
  `|x| < +∞`; an extended real whose absolute value `max x (-x)` lies strictly below `+∞` is neither infinity.
-/
import proofs.«127665_j82222853914696_2_alg».proof.Proof.Gen.Pre_finite_inputs
import Idealize.ShloMosaic.Lib.ReduceAll
import Idealize.ShloMosaic.Lib.ValueIdx
import Idealize.ShloMosaic.PureOps.Ideal.Laws

noncomputable section

namespace Cert.NccFinite

open Idealize.ShloMosaic

/-- The pattern of `+∞`. -/
theorem ofBits_inf : Ideal.ofBits .f32 0x7F800000#32 = ⊤ := by
  simp [Ideal.ofBits, Ideal.ieee]

/-- An extended real with `|x| < +∞` is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = r := by
  rw [Ideal.cmpf_def, Ideal.hostAbsf_def, Ideal.absf_def, Ideal.ofBits_def, ofBits_inf] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- The precondition gives real entries in both float arrays. -/
theorem real_of_pre [Cert.Pre_finite_inputs.Facts]
    (a0 a1 : FVec Ideal Cert.Pre_finite_inputs.S16x1x64x128x128 .f32)
    (a2 a3 : IVec Cert.Pre_finite_inputs.S16x1x64x128x128 32)
    (h : Cert.Pre_finite_inputs.fn (F := Ideal) a0 a1 a2 a3 = fun _ => 1#1) :
    (∀ i, ∃ r : ℝ, a0 i = r) ∧ (∀ i, ∃ r : ℝ, a1 i = r) := by
  have h0 := congrFun h ValueIdx.ix0
  dsimp only [Cert.Pre_finite_inputs.fn] at h0
  obtain ⟨hA, hB⟩ := IntOp.andi_eq_one.1 h0
  exact ⟨fun i => real_of_abs_lt_inf _ (Host.reduce_andi_all _ _ _ _ _ hA i),
    fun i => real_of_abs_lt_inf _ (Host.reduce_andi_all _ _ _ _ _ hB i)⟩

end Cert.NccFinite

end
-- ==== Proof.RealSums.lean ====
/-
  Real-number algebra behind the normalized cross-correlation statistic: no program is imported here.

  For a finite family `f` over `W` points, the "sum of squares minus correction" expression
  `Σ f² - 2·(Σ f / W)·Σ f + (Σ f / W)²·W` equals `Σ f² - (Σ f)² / W`, which is nonnegative by the
  Cauchy–Schwarz inequality.  Hence the denominator `var_f · var_g + ε` of the statistic is positive for
  every positive `ε`, so the quotient is an honest real number.  The last lemma moves a per-batch factor and a
  sign through a sum of masked terms.
-/
import Mathlib

namespace Cert.NccAlgebra

open Finset

/-- `Σ f² - 2·(Σ f / W)·Σ f + (Σ f / W)·(Σ f / W)·W ≥ 0` when `W` is the (positive) number of points:
    the expression is `(W·Σ f² - (Σ f)²) / W`, nonnegative by Cauchy–Schwarz. -/
theorem var_nonneg {ι : Type*} [Fintype ι] (f : ι → ℝ) (W : ℝ) (hW : W = (Fintype.card ι : ℝ)) (hpos : 0 < W) :
    0 ≤ (∑ i, f i * f i) - 2 * ((∑ i, f i) / W) * (∑ i, f i) + ((∑ i, f i) / W) * ((∑ i, f i) / W) * W := by
  have cs : (∑ i, f i) ^ 2 ≤ W * ∑ i, f i ^ 2 := by
    rw [hW]
    have := sq_sum_le_card_mul_sum_sq (s := (Finset.univ : Finset ι)) (f := f)
    simpa [Finset.card_univ] using this
  have e : (∑ i, f i * f i) - 2 * ((∑ i, f i) / W) * (∑ i, f i) + ((∑ i, f i) / W) * ((∑ i, f i) / W) * W
      = (W * (∑ i, f i ^ 2) - (∑ i, f i) ^ 2) / W := by
    have h2 : (∑ i, f i * f i) = ∑ i, f i ^ 2 := Finset.sum_congr rfl fun i _ => (sq (f i)).symm
    rw [h2]
    field_simp
    ring
  rw [e]
  exact div_nonneg (by linarith) hpos.le

/-- The denominator of the statistic is positive. -/
theorem denom_pos {ι : Type*} [Fintype ι] (f g : ι → ℝ) (W ε : ℝ) (hW : W = (Fintype.card ι : ℝ)) (hpos : 0 < W)
    (hε : 0 < ε) :
    0 < ((∑ i, f i * f i) - 2 * ((∑ i, f i) / W) * (∑ i, f i) + ((∑ i, f i) / W) * ((∑ i, f i) / W) * W)
        * ((∑ i, g i * g i) - 2 * ((∑ i, g i) / W) * (∑ i, g i) + ((∑ i, g i) / W) * ((∑ i, g i) / W) * W) + ε :=
  add_pos_of_nonneg_of_pos (mul_nonneg (var_nonneg f W hW hpos) (var_nonneg g W hW hpos)) hε

/-- A per-batch factor and a sign move through the sum of the masked terms:
    `-(Σ_b c_b · Σ_e p_{b,e}·q_{b,e}) = Σ_b Σ_e ((-c_b)·q_{b,e})·p_{b,e}`. -/
theorem neg_sum_mul_sum {β ε : Type*} [Fintype β] [Fintype ε] (c : β → ℝ) (p q : β → ε → ℝ) :
    -(∑ b, c b * ∑ e, p b e * q b e) = ∑ b, ∑ e, ((-c b) * q b e) * p b e := by
  rw [← Finset.sum_neg_distrib]
  refine Finset.sum_congr rfl fun b _ => ?_
  rw [Finset.mul_sum, ← Finset.sum_neg_distrib]
  exact Finset.sum_congr rfl fun e _ => by ring

end Cert.NccAlgebra
-- ==== Proof.LibIdxSums.lean ====
/-
  Sums over array indices, coordinate by coordinate (a general lemma file: nothing here mentions a program).

  An index of a rank-3 or rank-5 array is the tuple of its coordinates, so a sum over all indices is the nested
  sum over the coordinates; the sum over the indices of a rank-5 array whose first two coordinates are fixed is
  the triple sum over the remaining three; and a sum over 64 depth coordinates is the sum over the first 32
  plus the sum over the last 32.
-/
import Idealize.ShloMosaic.Lib.ValueIdx

namespace Cert.NccIdx

open Idealize.ShloMosaic Idealize.ShloMosaic.ValueIdx Finset

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-5 index set is the product of its coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f,
    Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

theorem ix2_eq_iff {n0 n1 : Nat} (a a' : Fin n0) (b b' : Fin n1) : ix2 a b = ix2 a' b' ↔ a = a' ∧ b = b' :=
  ⟨fun h => ⟨congrFun h 0, congrFun h 1⟩, fun ⟨h0, h1⟩ => by rw [h0, h1]⟩

/-- The indices of a rank-5 array that project to the pair `(a₀, b₀)` of their first two coordinates are the
    `(a₀, b₀, c, d, e)`: the sum over them is the triple sum over the last three coordinates. -/
theorem sum_filter_proj {M : Type*} [AddCommMonoid M] {n0 n1 n2 n3 n4 : Nat}
    (proj : (⟨5, ![n0, n1, n2, n3, n4]⟩ : Shape).Idx → (⟨2, ![n0, n1]⟩ : Shape).Idx)
    (hproj : ∀ a b c d e, proj (ix5 a b c d e) = ix2 a b)
    (x : (⟨5, ![n0, n1, n2, n3, n4]⟩ : Shape).Idx → M) (a0 : Fin n0) (b0 : Fin n1) :
    ∑ i ∈ Finset.univ.filter (fun i => proj i = ix2 a0 b0), x i
      = ∑ c : Fin n2, ∑ d : Fin n3, ∑ e : Fin n4, x (ix5 a0 b0 c d e) := by
  rw [Finset.sum_filter, sum_idx5]
  simp only [hproj, ix2_eq_iff]
  rw [Finset.sum_eq_single a0]
  · rw [Finset.sum_eq_single b0]
    · simp
    · intro b _ hb
      simp [hb]
    · intro h; exact absurd (Finset.mem_univ _) h
  · intro a _ ha
    simp [ha]
  · intro h; exact absurd (Finset.mem_univ _) h

/-- The first 32 of 64 depth coordinates. -/
abbrev lo (d : Fin 32) : Fin 64 := ⟨d.val, by omega⟩
/-- The last 32 of 64 depth coordinates. -/
abbrev hi (d : Fin 32) : Fin 64 := ⟨32 + d.val, by omega⟩

/-- A sum over 64 depth coordinates splits into its two halves. -/
theorem sum_split64 {M : Type*} [AddCommMonoid M] (g : Fin 64 → M) :
    ∑ c : Fin 64, g c = (∑ d : Fin 32, g (lo d)) + ∑ d : Fin 32, g (hi d) := by
  have h := Fin.sum_univ_add (a := 32) (b := 32) (f := (g : Fin (32 + 32) → M))
  exact h

end Cert.NccIdx
-- ==== Proof.Consts.lean ====
/-
  The float constants both programs spell, as the extended reals their bit patterns denote:
  `0`, `1`, `2`, the window size `2^20 = 64·128·128`, the element count `2^24 = 16·2^20`, and the small positive
  regularizer (the binary value nearest to `1e-5`), which is only needed to be a positive real.
-/
import Idealize.ShloMosaic.PureOps.Ideal

noncomputable section

namespace Cert.NccConsts

open Idealize.ShloMosaic

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The window size: `2^20 = 1048576` points per batch. -/
theorem ofBits_window : Ideal.ofBits .f32 0x49800000#32 = ((1048576 : ℝ) : EReal) := by
  simp [Ideal.ofBits, Ideal.ieee, -EReal.coe_mul]; norm_num

/-- The element count: `2^24 = 16777216`. -/
theorem ofBits_count : Ideal.ofBits .f32 0x4B800000#32 = ((16777216 : ℝ) : EReal) := by
  simp [Ideal.ofBits, Ideal.ieee, -EReal.coe_mul]; norm_num

/-- The regularizer is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  positivity

end Cert.NccConsts

end
-- ==== Proof.NccSpec.lean ====
/-
  The mathematics of the certificate, with no program in sight.

  Per batch `b` both programs form five window sums over the `64·128·128 = 2^20` points of the batch —
  `Σ I`, `Σ J`, `Σ I²`, `Σ J²`, `Σ I·J` — and from them the statistic
  `cc = cross² / (var_I · var_J + ε)` (`stat` below, operation by operation as both compute it).
  The kernel then returns `-(Σ_b cc_b · Σ_e p·q) / N` where `p, q` are the two masks, while the reference returns
  `(Σ_{b,e} ((-cc_b)·q)·p) / N`.  The kernel adds each window sum tile by tile (two depth halves, then lanes, then
  rows: `tileSum`); that is the same sum in another order (`tileSum_eq`).

  Over the extended reals, moving `cc_b` and the sign through the sums is only sound when `cc_b` is finite; it is,
  because for finite inputs the variances are nonnegative (Cauchy–Schwarz, with `2^20` the exact number of points), so
  the denominator is a positive real (`bridge`).
-/
import Idealize.ShloMosaic.PureOps.Ideal.Laws
import Idealize.ShloMosaic.Lib.ValueIdx
import proofs.«127665_j82222853914696_2_alg».proof.Proof.RealSums
import proofs.«127665_j82222853914696_2_alg».proof.Proof.LibIdxSums
import proofs.«127665_j82222853914696_2_alg».proof.Proof.Consts

noncomputable section

namespace Cert.NccSpec

open Idealize.ShloMosaic Idealize.ShloMosaic.ValueIdx Cert.NccIdx Finset

/-- The shape of every input array. -/
abbrev X5 : Shape := ⟨5, ![16, 1, 64, 128, 128]⟩

/-- The constants, as the programs spell them. -/
abbrev zc : EReal := Ideal.ofBits .f32 0x00000000#32
abbrev Wc : EReal := Ideal.ofBits .f32 0x49800000#32
abbrev twoc : EReal := Ideal.ofBits .f32 0x40000000#32
abbrev epsc : EReal := Ideal.ofBits .f32 0x3727C5AC#32
abbrev Nc : EReal := Ideal.ofBits .f32 0x4B800000#32

/-! ## Window sums -/

/-- The sum of `f` over batch `b`'s window. -/
def winSum {M : Type*} [AddCommMonoid M] (f : X5.Idx → M) (b : Fin 16) : M :=
  ∑ c : Fin 64, ∑ r : Fin 128, ∑ l : Fin 128, f (ix5 b 0 c r l)

/-- The same sum in the kernel's order: per (row, lane) the first depth half added to `z`, then the second half
    added to that; then the lanes; then the rows. -/
def tileSum {M : Type*} [AddCommMonoid M] (z : M) (f : X5.Idx → M) (b : Fin 16) : M :=
  ∑ r : Fin 128, ∑ l : Fin 128,
    ((z + ∑ d : Fin 32, f (ix5 b 0 (lo d) r l)) + ∑ d : Fin 32, f (ix5 b 0 (hi d) r l))

theorem tileSum_eq {M : Type*} [AddCommMonoid M] (f : X5.Idx → M) (b : Fin 16) :
    tileSum (0 : M) f b = winSum f b := by
  unfold tileSum winSum
  have h : ∀ (r l : Fin 128), ((0 : M) + ∑ d : Fin 32, f (ix5 b 0 (lo d) r l)) + ∑ d : Fin 32, f (ix5 b 0 (hi d) r l)
      = ∑ c : Fin 64, f (ix5 b 0 c r l) := fun r l => by
    rw [zero_add]; exact (sum_split64 (fun c => f (ix5 b 0 c r l))).symm
  simp only [h]
  exact (Finset.sum_congr rfl fun r _ => Finset.sum_comm).trans Finset.sum_comm

/-! ## The statistic -/

/-- The statistic of the five sums over the extended reals, operation by operation. -/
def stat (s1 s2 s11 s22 s12 : EReal) : EReal :=
  Ideal.div
    ((((s12 - (Ideal.div s2 Wc) * s1) - (Ideal.div s1 Wc) * s2) + ((Ideal.div s1 Wc) * (Ideal.div s2 Wc)) * Wc)
      * (((s12 - (Ideal.div s2 Wc) * s1) - (Ideal.div s1 Wc) * s2) + ((Ideal.div s1 Wc) * (Ideal.div s2 Wc)) * Wc))
    ((((s11 - (twoc * (Ideal.div s1 Wc)) * s1) + ((Ideal.div s1 Wc) * (Ideal.div s1 Wc)) * Wc)
        * ((s22 - (twoc * (Ideal.div s2 Wc)) * s2) + ((Ideal.div s2 Wc) * (Ideal.div s2 Wc)) * Wc)) + epsc)

/-- The same over the reals. -/
def statR (ε s1 s2 s11 s22 s12 : ℝ) : ℝ :=
  ((((s12 - (s2 / 1048576) * s1) - (s1 / 1048576) * s2) + ((s1 / 1048576) * (s2 / 1048576)) * 1048576)
      * (((s12 - (s2 / 1048576) * s1) - (s1 / 1048576) * s2) + ((s1 / 1048576) * (s2 / 1048576)) * 1048576))
    / ((((s11 - (2 * (s1 / 1048576)) * s1) + ((s1 / 1048576) * (s1 / 1048576)) * 1048576)
        * ((s22 - (2 * (s2 / 1048576)) * s2) + ((s2 / 1048576) * (s2 / 1048576)) * 1048576)) + ε)

theorem div_coe_coe (x y : ℝ) (hy : y ≠ 0) : Ideal.div (x : EReal) (y : EReal) = ((x / y : ℝ) : EReal) := by
  rw [Ideal.div_coe hy, ← EReal.coe_mul]
  congr 1
  field_simp

/-- On real sums whose denominator does not vanish the statistic is the real one. -/
theorem stat_coe (ε s1 s2 s11 s22 s12 : ℝ) (hε : epsc = (ε : EReal))
    (hden : (((s11 - (2 * (s1 / 1048576)) * s1) + ((s1 / 1048576) * (s1 / 1048576)) * 1048576)
        * ((s22 - (2 * (s2 / 1048576)) * s2) + ((s2 / 1048576) * (s2 / 1048576)) * 1048576)) + ε ≠ 0) :
    stat s1 s2 s11 s22 s12 = ((statR ε s1 s2 s11 s22 s12 : ℝ) : EReal) := by
  unfold stat statR
  have hW : Wc = ((1048576 : ℝ) : EReal) := Cert.NccConsts.ofBits_window
  have h2 : twoc = ((2 : ℝ) : EReal) := Cert.NccConsts.ofBits_two
  rw [hW, h2, hε]
  rw [div_coe_coe s1 1048576 (by norm_num), div_coe_coe s2 1048576 (by norm_num)]
  simp only [← EReal.coe_mul, ← EReal.coe_sub, ← EReal.coe_add]
  rw [div_coe_coe _ _ hden]

/-! ## Sums of real families, as extended reals -/

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem winSum_coe (f : X5.Idx → ℝ) (b : Fin 16) :
    winSum (fun i => ((f i : ℝ) : EReal)) b = ((winSum f b : ℝ) : EReal) := by
  unfold winSum
  simp only [coe_sum]

/-- A window has exactly `2^20` points, so its variance expression is nonnegative and the statistic's denominator is
    positive. -/
theorem win_denom_pos (f g : X5.Idx → ℝ) (b : Fin 16) (ε : ℝ) (hε : 0 < ε) :
    0 < (((winSum (fun i => f i * f i) b - (2 * (winSum f b / 1048576)) * winSum f b)
            + ((winSum f b / 1048576) * (winSum f b / 1048576)) * 1048576)
          * ((winSum (fun i => g i * g i) b - (2 * (winSum g b / 1048576)) * winSum g b)
            + ((winSum g b / 1048576) * (winSum g b / 1048576)) * 1048576)) + ε := by
  have key : ∀ h : X5.Idx → ℝ, winSum h b
      = ∑ p : Fin 64 × Fin 128 × Fin 128, h (ix5 b 0 p.1 p.2.1 p.2.2) := by
    intro h
    unfold winSum
    rw [Fintype.sum_prod_type]
    refine Finset.sum_congr rfl fun c _ => ?_
    rw [Fintype.sum_prod_type]
  have hcard : (1048576 : ℝ) = (Fintype.card (Fin 64 × Fin 128 × Fin 128) : ℝ) := by
    simp [Fintype.card_prod]
  rw [key f, key g, key (fun i => f i * f i), key (fun i => g i * g i)]
  exact Cert.NccAlgebra.denom_pos (fun p : Fin 64 × Fin 128 × Fin 128 => f (ix5 b 0 p.1 p.2.1 p.2.2))
    (fun p => g (ix5 b 0 p.1 p.2.1 p.2.2)) 1048576 ε hcard (by norm_num) hε

/-! ## The two results -/

/-- The statistic of batch `b` from window sums taken by `S`. -/
def batchStat (S : (X5.Idx → EReal) → Fin 16 → EReal) (I J : X5.Idx → EReal) (b : Fin 16) : EReal :=
  stat (S I b) (S J b) (S (fun i => I i * I i) b) (S (fun i => J i * J i) b) (S (fun i => I i * J i) b)

/-- What the kernel returns: `-(z + Σ_b cc_b · Σ_e p·q) / N`, its sums in tile order. -/
def kernelVal (I J p q : X5.Idx → EReal) : EReal :=
  Ideal.div (-(zc + ∑ b : Fin 16, batchStat (tileSum zc) I J b * tileSum zc (fun i => p i * q i) b)) Nc

/-- What the reference returns: `(z + Σ_{b,e} ((-cc_b)·q)·p) / N`, its sums starting from `z`. -/
def refVal (I J p q : X5.Idx → EReal) : EReal :=
  Ideal.div (zc + ∑ i : X5.Idx, ((-(batchStat (fun f b => zc + winSum f b) I J (i 0))) * q i) * p i) Nc

theorem zc_eq : zc = 0 := by
  show Ideal.ofBits .f32 0x00000000#32 = 0
  rw [Cert.NccConsts.ofBits_zero, EReal.coe_zero]

/-- The real identity behind the two results: the batch statistic and the sign move through the window sum of the
    masked terms. -/
theorem real_identity (cR : Fin 16 → ℝ) (p' q' : X5.Idx → ℝ) :
    -(∑ b : Fin 16, cR b * winSum (fun i => p' i * q' i) b)
      = ∑ a : Fin 16, ∑ b : Fin 1, ∑ c : Fin 64, ∑ d : Fin 128, ∑ e : Fin 128,
          ((-cR a) * q' (ix5 a b c d e)) * p' (ix5 a b c d e) := by
  rw [← Finset.sum_neg_distrib]
  refine Finset.sum_congr rfl fun a _ => ?_
  rw [Fin.sum_univ_one]
  unfold winSum
  rw [Finset.mul_sum, ← Finset.sum_neg_distrib]
  refine Finset.sum_congr rfl fun c _ => ?_
  rw [Finset.mul_sum, ← Finset.sum_neg_distrib]
  refine Finset.sum_congr rfl fun d _ => ?_
  rw [Finset.mul_sum, ← Finset.sum_neg_distrib]
  refine Finset.sum_congr rfl fun e _ => ?_
  ring

/-- With window sums that agree with `winSum`, the batch statistic of real-valued arrays is the real one. -/
theorem batchStat_coe (S : (X5.Idx → EReal) → Fin 16 → EReal) (hS : ∀ (f : X5.Idx → EReal) (b : Fin 16), S f b = winSum f b)
    (I' J' : X5.Idx → ℝ) (ε : ℝ) (hεpos : 0 < ε) (hε : epsc = (ε : EReal)) (b : Fin 16) :
    batchStat S (fun i => ((I' i : ℝ) : EReal)) (fun i => ((J' i : ℝ) : EReal)) b
      = ((statR ε (winSum I' b) (winSum J' b) (winSum (fun i => I' i * I' i) b) (winSum (fun i => J' i * J' i) b)
          (winSum (fun i => I' i * J' i) b) : ℝ) : EReal) := by
  unfold batchStat
  rw [hS, hS, hS, hS, hS]
  simp only [← EReal.coe_mul]
  rw [winSum_coe, winSum_coe, winSum_coe (fun i => I' i * I' i), winSum_coe (fun i => J' i * J' i),
    winSum_coe (fun i => I' i * J' i)]
  exact stat_coe ε _ _ _ _ _ hε (win_denom_pos I' J' b ε hεpos).ne'

set_option maxHeartbeats 1600000 in
/-- For real-valued arrays the two results agree. -/
theorem bridge (I J p q : X5.Idx → EReal) (hI : ∀ i, ∃ r : ℝ, I i = r) (hJ : ∀ i, ∃ r : ℝ, J i = r)
    (hp : ∀ i, ∃ r : ℝ, p i = r) (hq : ∀ i, ∃ r : ℝ, q i = r) :
    kernelVal I J p q = refVal I J p q := by
  choose I' hI' using hI
  choose J' hJ' using hJ
  choose p' hp' using hp
  choose q' hq' using hq
  obtain rfl : I = fun i => ((I' i : ℝ) : EReal) := funext hI'
  obtain rfl : J = fun i => ((J' i : ℝ) : EReal) := funext hJ'
  obtain rfl : p = fun i => ((p' i : ℝ) : EReal) := funext hp'
  obtain rfl : q = fun i => ((q' i : ℝ) : EReal) := funext hq'
  obtain ⟨ε, hεpos, hε⟩ := Cert.NccConsts.ofBits_eps
  have hN : Nc = ((16777216 : ℝ) : EReal) := Cert.NccConsts.ofBits_count
  -- the real statistic of a batch
  let cR : Fin 16 → ℝ := fun b =>
    statR ε (winSum I' b) (winSum J' b) (winSum (fun i => I' i * I' i) b) (winSum (fun i => J' i * J' i) b)
      (winSum (fun i => I' i * J' i) b)
  have hK : ∀ b, batchStat (tileSum 0) (fun i => ((I' i : ℝ) : EReal)) (fun i => ((J' i : ℝ) : EReal)) b
      = ((cR b : ℝ) : EReal) :=
    fun b => batchStat_coe (tileSum 0) (fun f b => tileSum_eq f b) I' J' ε hεpos hε b
  have hR : ∀ b, batchStat (fun f b => 0 + winSum f b) (fun i => ((I' i : ℝ) : EReal)) (fun i => ((J' i : ℝ) : EReal)) b
      = ((cR b : ℝ) : EReal) :=
    fun b => batchStat_coe _ (fun f b => zero_add _) I' J' ε hεpos hε b
  have hM : ∀ b, tileSum 0 (fun i => ((p' i : ℝ) : EReal) * ((q' i : ℝ) : EReal)) b
      = ((winSum (fun i => p' i * q' i) b : ℝ) : EReal) := by
    intro b
    rw [tileSum_eq]
    simp only [← EReal.coe_mul]
    exact winSum_coe _ b
  have lhs : (0 : EReal) + ∑ b : Fin 16, batchStat (tileSum 0) (fun i => ((I' i : ℝ) : EReal)) (fun i => ((J' i : ℝ) : EReal)) b
        * tileSum 0 (fun i => ((p' i : ℝ) : EReal) * ((q' i : ℝ) : EReal)) b
      = ((∑ b : Fin 16, cR b * winSum (fun i => p' i * q' i) b : ℝ) : EReal) := by
    rw [zero_add, ← coe_sum]
    refine Finset.sum_congr rfl fun b _ => ?_
    rw [hK b, hM b, EReal.coe_mul]
  have rhs : (0 : EReal) + ∑ i : X5.Idx, ((-(batchStat (fun f b => 0 + winSum f b) (fun i => ((I' i : ℝ) : EReal))
          (fun i => ((J' i : ℝ) : EReal)) (i 0))) * ((q' i : ℝ) : EReal)) * ((p' i : ℝ) : EReal)
      = ((∑ a : Fin 16, ∑ b : Fin 1, ∑ c : Fin 64, ∑ d : Fin 128, ∑ e : Fin 128,
            ((-cR a) * q' (ix5 a b c d e)) * p' (ix5 a b c d e) : ℝ) : EReal) := by
    rw [zero_add, sum_idx5]
    simp only [← coe_sum]
    refine Finset.sum_congr rfl fun a _ => Finset.sum_congr rfl fun b _ => Finset.sum_congr rfl fun c _ =>
      Finset.sum_congr rfl fun d _ => Finset.sum_congr rfl fun e _ => ?_
    show ((-(batchStat _ _ _ a)) * _) * _ = _
    rw [hR a, EReal.coe_mul, EReal.coe_mul, EReal.coe_neg]
  unfold kernelVal refVal
  beta_reduce
  rw [zc_eq]
  rw [lhs, rhs, hN, ← EReal.coe_neg, div_coe_coe _ _ (by norm_num), div_coe_coe _ _ (by norm_num)]
  exact congrArg (fun x : ℝ => ((x / 16777216 : ℝ) : EReal)) (real_identity cR p' q')

end Cert.NccSpec

end
-- ==== Proof.Mask.lean ====
/-
  The mask of one element, as both programs compute it: `0` where the value lies strictly below the threshold and
  the label is positive, `1` elsewhere.  Whatever the inputs, it is one of the two real numbers `0` and `1`.
-/
import Idealize.ShloMosaic.PureOps.Ideal.Laws
import proofs.«127665_j82222853914696_2_alg».proof.Proof.Consts

noncomputable section

namespace Cert.NccMask

open Idealize.ShloMosaic

/-- The mask of an element `x` with label `w`. -/
def maskE (x : EReal) (w : BitVec 32) : EReal :=
  Scalar.select
    (IntOp.andi (FloatOps.cmpf (F := Ideal) (φ := .f32) .olt x (FloatOps.ofBits (F := Ideal) .f32 0x3E7CED91#32))
      (IntOp.cmpi .sgt w 0#32))
    (FloatOps.ofBits (F := Ideal) .f32 0x00000000#32) (FloatOps.ofBits (F := Ideal) .f32 0x3F800000#32)

/-- It is a real number (`0` or `1`). -/
theorem maskE_real (x : EReal) (w : BitVec 32) : ∃ r : ℝ, maskE x w = r := by
  unfold maskE Scalar.select
  split
  · exact ⟨0, by rw [Ideal.ofBits_def]; exact Cert.NccConsts.ofBits_zero⟩
  · exact ⟨1, by rw [Ideal.ofBits_def]; exact Cert.NccConsts.ofBits_one⟩

end Cert.NccMask

end
-- ==== Proof.RefValue.lean ====
/-
  The reference, read at its one result index.

  Its five reductions over the axes (depth, row, lane) into a [16, 1] array are, at (b, 0), the initial value plus
  the window sum of batch `b`; the statistic it forms from them and broadcasts back over the window is `batchStat`;
  its two `where`s are the element masks; and its last two operations are the sum over every element of
  `((-cc_b)·mask_J)·mask_I` from the initial value, divided by the element count: `refVal`.
-/
import proofs.«127665_j82222853914696_2_alg».proof.Proof.Gen.ReferenceIdeal.Read
import proofs.«127665_j82222853914696_2_alg».proof.Proof.NccSpec
import proofs.«127665_j82222853914696_2_alg».proof.Proof.Mask

noncomputable section

namespace Cert.ReferenceIdeal.RefValue

open Idealize.ShloMosaic Idealize.ShloMosaic.ValueIdx
open Cert.ReferenceIdeal Cert.ReferenceIdeal.Gen Cert.ReferenceIdeal.Read
open Cert.NccSpec Cert.NccIdx Cert.NccMask

/-- Dropping the three reduced axes of (a, b, c, d, e) leaves (a, b). -/
theorem drop_ix5 (h : S16x1x64x128x128.ReducesTo [2, 3, 4] S16x1) (a : Fin 16) (b : Fin 1) (c : Fin 64) (d e : Fin 128) :
    h.drop (ix5 a b c d e) = ix2 a b := by
  funext k
  match k with
  | ⟨0, _⟩ => rfl
  | ⟨1, _⟩ => rfl

/-- A host sum over (depth, row, lane) read at (a, b): the initial value plus batch `a`'s window sum. -/
theorem reduce_eq_winSum (h : S16x1x64x128x128.ReducesTo [2, 3, 4] S16x1) (x : S16x1x64x128x128.Idx → EReal) (init : EReal)
    (a : Fin 16) (b : Fin 1) :
    Ideal.hostReduceAdd h x init (ix2 a b) = init + winSum x a := by
  unfold Ideal.hostReduceAdd
  rw [sum_filter_proj (fun i => h.drop i) (fun a b c d e => drop_ix5 h a b c d e) x a b]
  obtain rfl : b = 0 := Subsingleton.elim _ _
  rfl

/-- Where the broadcast statistic at element `i` reads the [16, 1] sums: at (batch of `i`, 0). -/
theorem idx_sums (i : S16x1x64x128x128.Idx) : idx_main_v15 (idx_main_v61 i) = ix2 (⟨(i 0).val, (i 0).isLt⟩ : Fin 16) (0 : Fin 1) := by
  funext a
  match a with
  | ⟨0, _⟩ => rfl
  | ⟨1, _⟩ => rfl

theorem sum_I (x0 : S16x1x64x128x128.Idx → EReal) (i : S16x1x64x128x128.Idx) :
    val_main_v14 (F := Ideal) x0 (idx_main_v15 (idx_main_v61 i)) = zc + winSum x0 (i 0) := by
  unfold val_main_v14 Host.reduceAdd
  rw [Ideal.hostReduceAdd_def, idx_sums, reduce_eq_winSum]
  rfl

theorem sum_J (x1 : S16x1x64x128x128.Idx → EReal) (i : S16x1x64x128x128.Idx) :
    val_main_v16 (F := Ideal) x1 (idx_main_v17 (idx_main_v61 i)) = zc + winSum x1 (i 0) := by
  unfold val_main_v16 Host.reduceAdd
  rw [Ideal.hostReduceAdd_def, show idx_main_v17 (idx_main_v61 i) = idx_main_v15 (idx_main_v61 i) from rfl, idx_sums,
    reduce_eq_winSum]
  rfl

theorem sum_II (x0 : S16x1x64x128x128.Idx → EReal) (i : S16x1x64x128x128.Idx) :
    val_main_v19 (F := Ideal) x0 (idx_main_v20 (idx_main_v61 i)) = zc + winSum (fun j => x0 j * x0 j) (i 0) := by
  unfold val_main_v19 Host.reduceAdd
  rw [Ideal.hostReduceAdd_def, show idx_main_v20 (idx_main_v61 i) = idx_main_v15 (idx_main_v61 i) from rfl, idx_sums,
    reduce_eq_winSum]
  rfl

theorem sum_JJ (x1 : S16x1x64x128x128.Idx → EReal) (i : S16x1x64x128x128.Idx) :
    val_main_v22 (F := Ideal) x1 (idx_main_v23 (idx_main_v61 i)) = zc + winSum (fun j => x1 j * x1 j) (i 0) := by
  unfold val_main_v22 Host.reduceAdd
  rw [Ideal.hostReduceAdd_def, show idx_main_v23 (idx_main_v61 i) = idx_main_v15 (idx_main_v61 i) from rfl, idx_sums,
    reduce_eq_winSum]
  rfl

theorem sum_IJ (x0 x1 : S16x1x64x128x128.Idx → EReal) (i : S16x1x64x128x128.Idx) :
    val_main_v25 (F := Ideal) x0 x1 (idx_main_v26 (idx_main_v61 i)) = zc + winSum (fun j => x0 j * x1 j) (i 0) := by
  unfold val_main_v25 Host.reduceAdd
  rw [Ideal.hostReduceAdd_def, show idx_main_v26 (idx_main_v61 i) = idx_main_v15 (idx_main_v61 i) from rfl, idx_sums,
    reduce_eq_winSum]
  rfl

/-- The statistic the reference broadcasts to element `i` is that of `i`'s batch. -/
theorem ref_stat (x0 x1 : S16x1x64x128x128.Idx → EReal) (i : S16x1x64x128x128.Idx) :
    val_main_v59 (F := Ideal) x0 x1 (idx_main_v61 i) = batchStat (fun f b => zc + winSum f b) x0 x1 (i 0) := by
  simp only [val_main_cst_6_apply, val_main_v15_apply, val_main_cst_7_apply, val_main_v17_apply, val_main_cst_8_apply, val_main_v20_apply, val_main_cst_9_apply, val_main_v23_apply, val_main_cst_10_apply, val_main_v26_apply, val_main_cst_11_apply, val_main_v27_apply, val_main_v28_apply, val_main_cst_12_apply, val_main_v29_apply, val_main_v30_apply, val_main_v31_apply, val_main_v32_apply, val_main_v33_apply, val_main_v34_apply, val_main_v35_apply, val_main_cst_13_apply, val_main_v36_apply, val_main_v37_apply, val_main_v38_apply, val_main_cst_14_apply, val_main_v39_apply, val_main_v40_apply, val_main_v41_apply, val_main_v42_apply, val_main_v43_apply, val_main_cst_15_apply, val_main_v44_apply, val_main_v45_apply, val_main_v46_apply, val_main_cst_16_apply, val_main_v47_apply, val_main_v48_apply, val_main_v49_apply, val_main_v50_apply, val_main_v51_apply, val_main_cst_17_apply, val_main_v52_apply, val_main_v53_apply, val_main_v54_apply, val_main_v55_apply, val_main_v56_apply, val_main_cst_18_apply, val_main_v57_apply, val_main_v58_apply, val_main_v59_apply]
  rw [sum_I, sum_J, sum_II, sum_JJ, sum_IJ]
  rfl

/-- The reference's first `where` is the mask of the first array and its label. -/
theorem ref_maskI (x0 : S16x1x64x128x128.Idx → EReal) (x2 : S16x1x64x128x128.Idx → BitVec 32) (i : S16x1x64x128x128.Idx) :
    val_main_v6 (F := Ideal) x0 x2 i = maskE (x0 i) (x2 i) := by
  simp only [val_main_cst_apply, val_main_v0_apply, val_main_v1_apply, val_main_c_apply, val_main_v2_apply, val_main_v3_apply, val_main_v4_apply, val_main_cst_0_apply, val_main_cst_1_apply, val_main_call0_v0_apply, val_main_call0_v1_apply, val_main_v5_apply, val_main_v6_apply, val_main_cst_2_apply, val_main_v7_apply, val_main_v8_apply, val_main_c_3_apply, val_main_v9_apply, val_main_v10_apply, val_main_v11_apply, val_main_cst_4_apply, val_main_cst_5_apply, val_main_call1_v0_apply, val_main_call1_v1_apply, val_main_v12_apply, val_main_v13_apply]
  rfl

/-- The second `where` is the mask of the second array and its label. -/
theorem ref_maskJ (x1 : S16x1x64x128x128.Idx → EReal) (x3 : S16x1x64x128x128.Idx → BitVec 32) (i : S16x1x64x128x128.Idx) :
    val_main_v13 (F := Ideal) x1 x3 i = maskE (x1 i) (x3 i) := by
  simp only [val_main_cst_apply, val_main_v0_apply, val_main_v1_apply, val_main_c_apply, val_main_v2_apply, val_main_v3_apply, val_main_v4_apply, val_main_cst_0_apply, val_main_cst_1_apply, val_main_call0_v0_apply, val_main_call0_v1_apply, val_main_v5_apply, val_main_v6_apply, val_main_cst_2_apply, val_main_v7_apply, val_main_v8_apply, val_main_c_3_apply, val_main_v9_apply, val_main_v10_apply, val_main_v11_apply, val_main_cst_4_apply, val_main_cst_5_apply, val_main_call1_v0_apply, val_main_call1_v1_apply, val_main_v12_apply, val_main_v13_apply]
  rfl

/-- The reference's result. -/
theorem ref_eq (x0 x1 : S16x1x64x128x128.Idx → EReal) (x2 x3 : S16x1x64x128x128.Idx → BitVec 32) :
    val_main_v65 (F := Ideal) x0 x1 x2 x3
      = fun _ => refVal x0 x1 (fun i => maskE (x0 i) (x2 i)) (fun i => maskE (x1 i) (x3 i)) := by
  funext k
  rw [val_main_v65_apply, val_main_v64_apply, val_main_cst_19_apply, val_main_cst_20_apply]
  unfold refVal
  refine congrArg (fun s => Ideal.div (zc + s) Nc) ?_
  refine Finset.sum_congr rfl fun i _ => ?_
  rw [val_main_v63_apply, val_main_v62_apply, val_main_v61_apply, val_main_v60_apply, ref_stat, ref_maskI, ref_maskJ]
  rfl

end Cert.ReferenceIdeal.RefValue

end
-- ==== Proof.KernelCases.lean ====
/-
  What the kernel body leaves, case by case, as values.

  The kernel keeps six [128, 128] accumulators (for Σ I, Σ J, Σ I², Σ J², Σ I·J and Σ mask_I·mask_J).  At a point
  each accumulator becomes its previous contents plus the depth-sum of the point's block (`acc…` below).  In the
  case of a batch's first depth chunk the previous contents are the zero block just stored; in the case of its
  last depth chunk the body then reduces the six accumulators over lanes and rows and writes the output block
  from the six totals (`blockOf`).
-/
import proofs.«127665_j82222853914696_2_alg».proof.Proof.KernelIdealFrameP
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen Cert.KernelIdeal.GenP

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- The accumulator of the sum of the first array after a point: its contents `a` before, plus the depth-sum of the point's block. -/
def accI (x0 : Vec F S1x1x32x128x128 .f32) (a : Vec F S128x128 .f32) : Vec F S128x128 .f32 := k0_pay23 (k0_pay19 x0) a

/-- The accumulator of the sum of the second array after a point: its contents `a` before, plus the depth-sum of the point's block. -/
def accJ (x1 : Vec F S1x1x32x128x128 .f32) (a : Vec F S128x128 .f32) : Vec F S128x128 .f32 := k0_pay24 (k0_pay20 x1) a

/-- The accumulator of the sum of squares of the first array after a point: its contents `a` before, plus the depth-sum of the point's block. -/
def accII (x0 : Vec F S1x1x32x128x128 .f32) (a : Vec F S128x128 .f32) : Vec F S128x128 .f32 := k0_pay25 (k0_pay19 x0) a

/-- The accumulator of the sum of squares of the second array after a point: its contents `a` before, plus the depth-sum of the point's block. -/
def accJJ (x1 : Vec F S1x1x32x128x128 .f32) (a : Vec F S128x128 .f32) : Vec F S128x128 .f32 := k0_pay26 (k0_pay20 x1) a

/-- The accumulator of the sum of products after a point: its contents `a` before, plus the depth-sum of the point's block. -/
def accIJ (x0 x1 : Vec F S1x1x32x128x128 .f32) (a : Vec F S128x128 .f32) : Vec F S128x128 .f32 := k0_pay1 (k0_pay27 (k0_pay19 x0) (k0_pay20 x1) a)

/-- The accumulator of the sum of the products of the two masks after a point: its contents `a` before, plus the depth-sum of the point's block. -/
def accM (x0 x1 : Vec F S1x1x32x128x128 .f32) (x2 x3 : Vec F S1x1x32x128x128 .i32) (a : Vec F S128x128 .f32) : Vec F S128x128 .f32 := k0_pay2 (k0_pay21 x0 x2) (k0_pay22 x1 x3) a

/-- The output block written at a batch's last depth chunk, from the point's blocks and the six accumulators before
    the point: the accumulators are updated, each reduced over lanes and rows, and the statistic and the mask total
    placed in the first two entries of the block's first row. -/
def blockOf (x0 x1 : Vec F S1x1x32x128x128 .f32) (x2 x3 : Vec F S1x1x32x128x128 .i32)
    (a0 a1 a2 a3 a4 a5 : Vec F S128x128 .f32) : Vec F S1x8x128 .f32 :=
  k0_pay3 (k0_pay4 (accI x0 a0)) (k0_pay5 (accJ x1 a1)) (k0_pay6 (accII x0 a2)) (k0_pay7 (accJJ x1 a3))
    (k0_pay8 (accIJ x0 x1 a4)) (k0_pay9 (accM x0 x1 x2 x3 a5)) (k0_pay10 (accI x0 a0)) (k0_pay11 (accJ x1 a1))

/-- First depth chunk: the accumulator of the sum of the first array is zeroed, then updated. -/
theorem scratchA_0 (c : Dev nD) (i : grid0.Coords) (arg2 : Memref sig .tc .vmem S1x1x32x128x128 .f32) (harg2 : arg2.IsWhole) (arg3 : Memref sig .tc .vmem S1x1x32x128x128 .f32) (harg3 : arg3.IsWhole) (arg4 : Memref sig .tc .vmem S1x1x32x128x128 .i32) (harg4 : arg4.IsWhole) (arg5 : Memref sig .tc .vmem S1x1x32x128x128 .i32) (harg5 : arg5.IsWhole) (arg6 : Memref sig .tc .vmem S1x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (hc0 : cond0_0 i) (hc1 : ¬cond0_1 i) (x0 : Vec F S1x1x32x128x128 .f32) (x1 : Vec F S1x1x32x128x128 .f32) (x2 : Vec F S1x1x32x128x128 .i32) (x3 : Vec F S1x1x32x128x128 .i32) :
    sout0_A_0 c i arg2 harg2 arg3 harg3 arg4 harg4 arg5 harg5 arg6 harg6 arg7 harg7 arg8 harg8 arg9 harg9 arg10 harg10 arg11 harg11 arg12 harg12 hc0 hc1 x0 x1 x2 x3 = accI x0 k0_pay12 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S128x128) hz2, View.readCov_unit_zero (S := S128x128) _ hz2]
  simp only [View.readAt_eq_ld, harg2.read_unread, harg3.read_unread, harg4.read_unread, harg5.read_unread, harg7.read_unread, harg8.read_unread, harg9.read_unread, harg10.read_unread, harg11.read_unread, harg12.read_unread, View.ld_unit_zero (S := S1x1x32x128x128) hz5]
  rfl

/-- First depth chunk: the accumulator of the sum of the second array is zeroed, then updated. -/
theorem scratchA_1 (c : Dev nD) (i : grid0.Coords) (arg2 : Memref sig .tc .vmem S1x1x32x128x128 .f32) (harg2 : arg2.IsWhole) (arg3 : Memref sig .tc .vmem S1x1x32x128x128 .f32) (harg3 : arg3.IsWhole) (arg4 : Memref sig .tc .vmem S1x1x32x128x128 .i32) (harg4 : arg4.IsWhole) (arg5 : Memref sig .tc .vmem S1x1x32x128x128 .i32) (harg5 : arg5.IsWhole) (arg6 : Memref sig .tc .vmem S1x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (hc0 : cond0_0 i) (hc1 : ¬cond0_1 i) (x0 : Vec F S1x1x32x128x128 .f32) (x1 : Vec F S1x1x32x128x128 .f32) (x2 : Vec F S1x1x32x128x128 .i32) (x3 : Vec F S1x1x32x128x128 .i32) :
    sout0_A_1 c i arg2 harg2 arg3 harg3 arg4 harg4 arg5 harg5 arg6 harg6 arg7 harg7 arg8 harg8 arg9 harg9 arg10 harg10 arg11 harg11 arg12 harg12 hc0 hc1 x0 x1 x2 x3 = accJ x1 k0_pay13 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S128x128) hz2, View.readCov_unit_zero (S := S128x128) _ hz2]
  simp only [View.readAt_eq_ld, harg2.read_unread, harg3.read_unread, harg4.read_unread, harg5.read_unread, harg7.read_unread, harg8.read_unread, harg9.read_unread, harg10.read_unread, harg11.read_unread, harg12.read_unread, View.ld_unit_zero (S := S1x1x32x128x128) hz5]
  rfl

/-- First depth chunk: the accumulator of the sum of squares of the first array is zeroed, then updated. -/
theorem scratchA_2 (c : Dev nD) (i : grid0.Coords) (arg2 : Memref sig .tc .vmem S1x1x32x128x128 .f32) (harg2 : arg2.IsWhole) (arg3 : Memref sig .tc .vmem S1x1x32x128x128 .f32) (harg3 : arg3.IsWhole) (arg4 : Memref sig .tc .vmem S1x1x32x128x128 .i32) (harg4 : arg4.IsWhole) (arg5 : Memref sig .tc .vmem S1x1x32x128x128 .i32) (harg5 : arg5.IsWhole) (arg6 : Memref sig .tc .vmem S1x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (hc0 : cond0_0 i) (hc1 : ¬cond0_1 i) (x0 : Vec F S1x1x32x128x128 .f32) (x1 : Vec F S1x1x32x128x128 .f32) (x2 : Vec F S1x1x32x128x128 .i32) (x3 : Vec F S1x1x32x128x128 .i32) :
    sout0_A_2 c i arg2 harg2 arg3 harg3 arg4 harg4 arg5 harg5 arg6 harg6 arg7 harg7 arg8 harg8 arg9 harg9 arg10 harg10 arg11 harg11 arg12 harg12 hc0 hc1 x0 x1 x2 x3 = accII x0 k0_pay14 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S128x128) hz2, View.readCov_unit_zero (S := S128x128) _ hz2]
  simp only [View.readAt_eq_ld, harg2.read_unread, harg3.read_unread, harg4.read_unread, harg5.read_unread, harg7.read_unread, harg8.read_unread, harg9.read_unread, harg10.read_unread, harg11.read_unread, harg12.read_unread, View.ld_unit_zero (S := S1x1x32x128x128) hz5]
  rfl

/-- First depth chunk: the accumulator of the sum of squares of the second array is zeroed, then updated. -/
theorem scratchA_3 (c : Dev nD) (i : grid0.Coords) (arg2 : Memref sig .tc .vmem S1x1x32x128x128 .f32) (harg2 : arg2.IsWhole) (arg3 : Memref sig .tc .vmem S1x1x32x128x128 .f32) (harg3 : arg3.IsWhole) (arg4 : Memref sig .tc .vmem S1x1x32x128x128 .i32) (harg4 : arg4.IsWhole) (arg5 : Memref sig .tc .vmem S1x1x32x128x128 .i32) (harg5 : arg5.IsWhole) (arg6 : Memref sig .tc .vmem S1x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (hc0 : cond0_0 i) (hc1 : ¬cond0_1 i) (x0 : Vec F S1x1x32x128x128 .f32) (x1 : Vec F S1x1x32x128x128 .f32) (x2 : Vec F S1x1x32x128x128 .i32) (x3 : Vec F S1x1x32x128x128 .i32) :
    sout0_A_3 c i arg2 harg2 arg3 harg3 arg4 harg4 arg5 harg5 arg6 harg6 arg7 harg7 arg8 harg8 arg9 harg9 arg10 harg10 arg11 harg11 arg12 harg12 hc0 hc1 x0 x1 x2 x3 = accJJ x1 k0_pay15 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S128x128) hz2, View.readCov_unit_zero (S := S128x128) _ hz2]
  simp only [View.readAt_eq_ld, harg2.read_unread, harg3.read_unread, harg4.read_unread, harg5.read_unread, harg7.read_unread, harg8.read_unread, harg9.read_unread, harg10.read_unread, harg11.read_unread, harg12.read_unread, View.ld_unit_zero (S := S1x1x32x128x128) hz5]
  rfl

/-- First depth chunk: the accumulator of the sum of products is zeroed, then updated. -/
theorem scratchA_4 (c : Dev nD) (i : grid0.Coords) (arg2 : Memref sig .tc .vmem S1x1x32x128x128 .f32) (harg2 : arg2.IsWhole) (arg3 : Memref sig .tc .vmem S1x1x32x128x128 .f32) (harg3 : arg3.IsWhole) (arg4 : Memref sig .tc .vmem S1x1x32x128x128 .i32) (harg4 : arg4.IsWhole) (arg5 : Memref sig .tc .vmem S1x1x32x128x128 .i32) (harg5 : arg5.IsWhole) (arg6 : Memref sig .tc .vmem S1x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (hc0 : cond0_0 i) (hc1 : ¬cond0_1 i) (x0 : Vec F S1x1x32x128x128 .f32) (x1 : Vec F S1x1x32x128x128 .f32) (x2 : Vec F S1x1x32x128x128 .i32) (x3 : Vec F S1x1x32x128x128 .i32) :
    sout0_A_4 c i arg2 harg2 arg3 harg3 arg4 harg4 arg5 harg5 arg6 harg6 arg7 harg7 arg8 harg8 arg9 harg9 arg10 harg10 arg11 harg11 arg12 harg12 hc0 hc1 x0 x1 x2 x3 = accIJ x0 x1 k0_pay16 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S128x128) hz2, View.readCov_unit_zero (S := S128x128) _ hz2]
  simp only [View.readAt_eq_ld, harg2.read_unread, harg3.read_unread, harg4.read_unread, harg5.read_unread, harg7.read_unread, harg8.read_unread, harg9.read_unread, harg10.read_unread, harg11.read_unread, harg12.read_unread, View.ld_unit_zero (S := S1x1x32x128x128) hz5]
  rfl

/-- First depth chunk: the accumulator of the sum of the products of the two masks is zeroed, then updated. -/
theorem scratchA_5 (c : Dev nD) (i : grid0.Coords) (arg2 : Memref sig .tc .vmem S1x1x32x128x128 .f32) (harg2 : arg2.IsWhole) (arg3 : Memref sig .tc .vmem S1x1x32x128x128 .f32) (harg3 : arg3.IsWhole) (arg4 : Memref sig .tc .vmem S1x1x32x128x128 .i32) (harg4 : arg4.IsWhole) (arg5 : Memref sig .tc .vmem S1x1x32x128x128 .i32) (harg5 : arg5.IsWhole) (arg6 : Memref sig .tc .vmem S1x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (hc0 : cond0_0 i) (hc1 : ¬cond0_1 i) (x0 : Vec F S1x1x32x128x128 .f32) (x1 : Vec F S1x1x32x128x128 .f32) (x2 : Vec F S1x1x32x128x128 .i32) (x3 : Vec F S1x1x32x128x128 .i32) :
    sout0_A_5 c i arg2 harg2 arg3 harg3 arg4 harg4 arg5 harg5 arg6 harg6 arg7 harg7 arg8 harg8 arg9 harg9 arg10 harg10 arg11 harg11 arg12 harg12 hc0 hc1 x0 x1 x2 x3 = accM x0 x1 x2 x3 k0_pay17 := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  sl_unfold_words
  rw [View.canon_cons_unit_zero (S := S128x128) hz2, View.readCov_unit_zero (S := S128x128) _ hz2]
  simp only [View.readAt_eq_ld, harg2.read_unread, harg3.read_unread, harg4.read_unread, harg5.read_unread, harg7.read_unread, harg8.read_unread, harg9.read_unread, harg10.read_unread, harg11.read_unread, harg12.read_unread, View.ld_unit_zero (S := S1x1x32x128x128) hz5]
  rfl

/-- Last depth chunk: the output block. -/
theorem outB (c : Dev nD) (i : grid0.Coords) (arg2 : Memref sig .tc .vmem S1x1x32x128x128 .f32) (harg2 : arg2.IsWhole) (arg3 : Memref sig .tc .vmem S1x1x32x128x128 .f32) (harg3 : arg3.IsWhole) (arg4 : Memref sig .tc .vmem S1x1x32x128x128 .i32) (harg4 : arg4.IsWhole) (arg5 : Memref sig .tc .vmem S1x1x32x128x128 .i32) (harg5 : arg5.IsWhole) (arg6 : Memref sig .tc .vmem S1x8x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (hc0 : ¬cond0_0 i) (hc1 : cond0_1 i) (x0 : Vec F S1x1x32x128x128 .f32) (x1 : Vec F S1x1x32x128x128 .f32) (x2 : Vec F S1x1x32x128x128 .i32) (x3 : Vec F S1x1x32x128x128 .i32) (xs0 : Vec F S128x128 .f32) (xs1 : Vec F S128x128 .f32) (xs2 : Vec F S128x128 .f32) (xs3 : Vec F S128x128 .f32) (xs4 : Vec F S128x128 .f32) (xs5 : Vec F S128x128 .f32) :
    out0_B_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5 = blockOf x0 x1 x2 x3 xs0 xs1 xs2 xs3 xs4 xs5 := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 xs3 xs4 xs5)]
  unfold kernelRun0_B
  dsimp only
  sl_unfold_words
  rw [View.canon_unit_zero hz3]
  simp only [View.readCov_unit_zero (S := S128x128) _ hz2, View.readAt_eq_ld, harg2.read_unread, harg3.read_unread, harg4.read_unread, harg5.read_unread, harg7.read_unread, harg8.read_unread, harg9.read_unread, harg10.read_unread, harg11.read_unread, harg12.read_unread, View.ld_unit_zero (S := S1x1x32x128x128) hz5,
    View.ld_unit_zero (S := S128x128) hz2]
  rfl

end Cert.KernelIdeal.Cases

end
-- ==== Proof.KernelValue.lean ====
/-
  The kernel's statistics array.

  The grid has two points per batch `b`: `2b` (first depth half) and `2b + 1` (second depth half); the output block of
  batch `b` is written back after point `2b + 1` only.  Its contents there are a function (`batchBlock`) of the two
  depth halves of batch `b` of the four argument arrays: the accumulators left by point `2b` start from zero, and
  point `2b + 1` adds its half, reduces, and writes the block.  So the [16, 8, 128] result array of the region is, at
  (b, r, l), entry (0, r, l) of batch `b`'s block (`statsArr`), because the sixteen written-back blocks cover it.
-/
import proofs.«127665_j82222853914696_2_alg».proof.Proof.KernelCases
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.GenP Cert.KernelIdeal.Cases

variable {F : FTy → Type} [FloatOps F]
variable (m : (ℓ : Loc nD τ sig) → Buf (Elt F) ℓ) (ρ : Dev nD → PrngReg)

/-- Depth half `h` of batch `b` of an argument array, as a [1, 1, 32, 128, 128] block. -/
def chunk {α : Type} (x : S16x1x64x128x128.Idx → α) (b : Fin 16) (h : Fin 2) : S1x1x32x128x128.Idx → α :=
  fun y => x (ix5 b (0 : Fin 1)
    (⟨32 * h.val + (y 2).val, by
        have h2 : (y 2).val < 32 := (y 2).isLt
        have hh : h.val < 2 := h.isLt
        omega⟩ : Fin 64)
    (⟨(y 3).val, (y 3).isLt⟩ : Fin 128) (⟨(y 4).val, (y 4).isLt⟩ : Fin 128))

/-- The first and the second grid point of batch `b`. -/
def tE (b : Fin 16) : Fin cfg0.N := ⟨2 * b.val, by have := b.isLt; show 2 * b.val < grid0.N; rw [N_0]; omega⟩
def tO (b : Fin 16) : Fin cfg0.N := ⟨2 * b.val + 1, by have := b.isLt; show 2 * b.val + 1 < grid0.N; rw [N_0]; omega⟩

/-! ## The index maps, decided over the grid -/

theorem idx_in0 : ∀ t : Fin cfg0.N, win0_0.index t (0 : Fin 5) = t.val / 2 ∧ win0_0.index t (1 : Fin 5) = 0
    ∧ win0_0.index t (2 : Fin 5) = t.val % 2 ∧ win0_0.index t (3 : Fin 5) = 0 ∧ win0_0.index t (4 : Fin 5) = 0 :=
  (by decide +kernel : ∀ t : Fin grid0.N, _)
theorem idx_in1 : ∀ t : Fin cfg0.N, win0_1.index t (0 : Fin 5) = t.val / 2 ∧ win0_1.index t (1 : Fin 5) = 0
    ∧ win0_1.index t (2 : Fin 5) = t.val % 2 ∧ win0_1.index t (3 : Fin 5) = 0 ∧ win0_1.index t (4 : Fin 5) = 0 :=
  (by decide +kernel : ∀ t : Fin grid0.N, _)
theorem idx_in2 : ∀ t : Fin cfg0.N, win0_2.index t (0 : Fin 5) = t.val / 2 ∧ win0_2.index t (1 : Fin 5) = 0
    ∧ win0_2.index t (2 : Fin 5) = t.val % 2 ∧ win0_2.index t (3 : Fin 5) = 0 ∧ win0_2.index t (4 : Fin 5) = 0 :=
  (by decide +kernel : ∀ t : Fin grid0.N, _)
theorem idx_in3 : ∀ t : Fin cfg0.N, win0_3.index t (0 : Fin 5) = t.val / 2 ∧ win0_3.index t (1 : Fin 5) = 0
    ∧ win0_3.index t (2 : Fin 5) = t.val % 2 ∧ win0_3.index t (3 : Fin 5) = 0 ∧ win0_3.index t (4 : Fin 5) = 0 :=
  (by decide +kernel : ∀ t : Fin grid0.N, _)
theorem idx_out : ∀ t : Fin cfg0.N, win0_4.index t (0 : Fin 3) = t.val / 2 ∧ win0_4.index t (1 : Fin 3) = 0
    ∧ win0_4.index t (2 : Fin 3) = 0 :=
  (by decide +kernel : ∀ t : Fin grid0.N, _)

/-! ## An input window's block is a depth half of a batch -/

theorem iblk0_eq (c : Dev nD) (t : Fin cfg0.N) (b : Fin 16) (h : Fin 2) (hb : t.val / 2 = b.val) (hh : t.val % 2 = h.val) :
    (iblk m c 0 t : Vec F S1x1x32x128x128 .f32) = chunk (V m c main_arg0) b h := by
  obtain ⟨e0, e1, e2, e3, e4⟩ := idx_in0 t
  funext j
  unfold iblk chunk
  rw [View.read_apply]
  show V m c main_arg0 _ = V m c main_arg0 _
  refine congrArg (V m c main_arg0) ?_
  funext a
  apply Fin.ext
  have j0 : (j 0).val < 1 := (j 0).isLt
  have j1 : (j 1).val < 1 := (j 1).isLt
  match a with
  | ⟨0, _⟩ => show win0_0.index t (0 : Fin 5) * 1 + 1 * (j 0).val = b.val; omega
  | ⟨1, _⟩ => show win0_0.index t (1 : Fin 5) * 1 + 1 * (j 1).val = 0; omega
  | ⟨2, _⟩ => show win0_0.index t (2 : Fin 5) * 32 + 1 * (j 2).val = 32 * h.val + (j 2).val; omega
  | ⟨3, _⟩ => show win0_0.index t (3 : Fin 5) * 128 + 1 * (j 3).val = (j 3).val; omega
  | ⟨4, _⟩ => show win0_0.index t (4 : Fin 5) * 128 + 1 * (j 4).val = (j 4).val; omega

theorem iblk1_eq (c : Dev nD) (t : Fin cfg0.N) (b : Fin 16) (h : Fin 2) (hb : t.val / 2 = b.val) (hh : t.val % 2 = h.val) :
    (iblk m c 1 t : Vec F S1x1x32x128x128 .f32) = chunk (V m c main_arg1) b h := by
  obtain ⟨e0, e1, e2, e3, e4⟩ := idx_in1 t
  funext j
  unfold iblk chunk
  rw [View.read_apply]
  show V m c main_arg1 _ = V m c main_arg1 _
  refine congrArg (V m c main_arg1) ?_
  funext a
  apply Fin.ext
  have j0 : (j 0).val < 1 := (j 0).isLt
  have j1 : (j 1).val < 1 := (j 1).isLt
  match a with
  | ⟨0, _⟩ => show win0_1.index t (0 : Fin 5) * 1 + 1 * (j 0).val = b.val; omega
  | ⟨1, _⟩ => show win0_1.index t (1 : Fin 5) * 1 + 1 * (j 1).val = 0; omega
  | ⟨2, _⟩ => show win0_1.index t (2 : Fin 5) * 32 + 1 * (j 2).val = 32 * h.val + (j 2).val; omega
  | ⟨3, _⟩ => show win0_1.index t (3 : Fin 5) * 128 + 1 * (j 3).val = (j 3).val; omega
  | ⟨4, _⟩ => show win0_1.index t (4 : Fin 5) * 128 + 1 * (j 4).val = (j 4).val; omega

theorem iblk2_eq (c : Dev nD) (t : Fin cfg0.N) (b : Fin 16) (h : Fin 2) (hb : t.val / 2 = b.val) (hh : t.val % 2 = h.val) :
    (iblk m c 2 t : Vec F S1x1x32x128x128 .i32) = chunk (V m c main_arg2) b h := by
  obtain ⟨e0, e1, e2, e3, e4⟩ := idx_in2 t
  funext j
  unfold iblk chunk
  rw [View.read_apply]
  show V m c main_arg2 _ = V m c main_arg2 _
  refine congrArg (V m c main_arg2) ?_
  funext a
  apply Fin.ext
  have j0 : (j 0).val < 1 := (j 0).isLt
  have j1 : (j 1).val < 1 := (j 1).isLt
  match a with
  | ⟨0, _⟩ => show win0_2.index t (0 : Fin 5) * 1 + 1 * (j 0).val = b.val; omega
  | ⟨1, _⟩ => show win0_2.index t (1 : Fin 5) * 1 + 1 * (j 1).val = 0; omega
  | ⟨2, _⟩ => show win0_2.index t (2 : Fin 5) * 32 + 1 * (j 2).val = 32 * h.val + (j 2).val; omega
  | ⟨3, _⟩ => show win0_2.index t (3 : Fin 5) * 128 + 1 * (j 3).val = (j 3).val; omega
  | ⟨4, _⟩ => show win0_2.index t (4 : Fin 5) * 128 + 1 * (j 4).val = (j 4).val; omega

theorem iblk3_eq (c : Dev nD) (t : Fin cfg0.N) (b : Fin 16) (h : Fin 2) (hb : t.val / 2 = b.val) (hh : t.val % 2 = h.val) :
    (iblk m c 3 t : Vec F S1x1x32x128x128 .i32) = chunk (V m c main_arg3) b h := by
  obtain ⟨e0, e1, e2, e3, e4⟩ := idx_in3 t
  funext j
  unfold iblk chunk
  rw [View.read_apply]
  show V m c main_arg3 _ = V m c main_arg3 _
  refine congrArg (V m c main_arg3) ?_
  funext a
  apply Fin.ext
  have j0 : (j 0).val < 1 := (j 0).isLt
  have j1 : (j 1).val < 1 := (j 1).isLt
  match a with
  | ⟨0, _⟩ => show win0_3.index t (0 : Fin 5) * 1 + 1 * (j 0).val = b.val; omega
  | ⟨1, _⟩ => show win0_3.index t (1 : Fin 5) * 1 + 1 * (j 1).val = 0; omega
  | ⟨2, _⟩ => show win0_3.index t (2 : Fin 5) * 32 + 1 * (j 2).val = 32 * h.val + (j 2).val; omega
  | ⟨3, _⟩ => show win0_3.index t (3 : Fin 5) * 128 + 1 * (j 3).val = (j 3).val; omega
  | ⟨4, _⟩ => show win0_3.index t (4 : Fin 5) * 128 + 1 * (j 4).val = (j 4).val; omega

/-! ## What the points leave -/

theorem scrE_0 (c : Dev nD) (t : Fin cfg0.N) (h0 : t.val % 2 = 0) :
    (outsAt0 m c t.val t.isLt).2.1 = accI (F := F) (iblk m c 0 t) k0_pay12 := by
  rw [outsAt0_A m c t h0 (by omega)]
  dsimp only
  exact scratchA_0 (F := F) c _ _ _ _ _ _ _ _ _ _ _ _ _ _ _ _ _ _ _ _ _ _ _ _ _ _ _ _ _

theorem scrE_1 (c : Dev nD) (t : Fin cfg0.N) (h0 : t.val % 2 = 0) :
    (outsAt0 m c t.val t.isLt).2.2.1 = accJ (F := F) (iblk m c 1 t) k0_pay13 := by
  rw [outsAt0_A m c t h0 (by omega)]
  dsimp only
  exact scratchA_1 (F := F) c _ _ _ _ _ _ _ _ _ _ _ _ _ _ _ _ _ _ _ _ _ _ _ _ _ _ _ _ _

theorem scrE_2 (c : Dev nD) (t : Fin cfg0.N) (h0 : t.val % 2 = 0) :
    (outsAt0 m c t.val t.isLt).2.2.2.1 = accII (F := F) (iblk m c 0 t) k0_pay14 := by
  rw [outsAt0_A m c t h0 (by omega)]
  dsimp only
  exact scratchA_2 (F := F) c _ _ _ _ _ _ _ _ _ _ _ _ _ _ _ _ _ _ _ _ _ _ _ _ _ _ _ _ _

theorem scrE_3 (c : Dev nD) (t : Fin cfg0.N) (h0 : t.val % 2 = 0) :
    (outsAt0 m c t.val t.isLt).2.2.2.2.1 = accJJ (F := F) (iblk m c 1 t) k0_pay15 := by
  rw [outsAt0_A m c t h0 (by omega)]
  dsimp only
  exact scratchA_3 (F := F) c _ _ _ _ _ _ _ _ _ _ _ _ _ _ _ _ _ _ _ _ _ _ _ _ _ _ _ _ _

theorem scrE_4 (c : Dev nD) (t : Fin cfg0.N) (h0 : t.val % 2 = 0) :
    (outsAt0 m c t.val t.isLt).2.2.2.2.2.1 = accIJ (F := F) (iblk m c 0 t) (iblk m c 1 t) k0_pay16 := by
  rw [outsAt0_A m c t h0 (by omega)]
  dsimp only
  exact scratchA_4 (F := F) c _ _ _ _ _ _ _ _ _ _ _ _ _ _ _ _ _ _ _ _ _ _ _ _ _ _ _ _ _

theorem scrE_5 (c : Dev nD) (t : Fin cfg0.N) (h0 : t.val % 2 = 0) :
    (outsAt0 m c t.val t.isLt).2.2.2.2.2.2 = accM (F := F) (iblk m c 0 t) (iblk m c 1 t) (iblk m c 2 t) (iblk m c 3 t) k0_pay17 := by
  rw [outsAt0_A m c t h0 (by omega)]
  dsimp only
  exact scratchA_5 (F := F) c _ _ _ _ _ _ _ _ _ _ _ _ _ _ _ _ _ _ _ _ _ _ _ _ _ _ _ _ _

/-- The block of batch `b`, from the two depth halves of the four argument arrays. -/
def batchBlock (A0 A1 : S16x1x64x128x128.Idx → Elt F .f32) (A2 A3 : S16x1x64x128x128.Idx → Elt F .i32) (b : Fin 16) :
    Vec F S1x8x128 .f32 :=
  blockOf (chunk A0 b 1) (chunk A1 b 1) (chunk A2 b 1) (chunk A3 b 1)
    (accI (chunk A0 b 0) k0_pay12) (accJ (chunk A1 b 0) k0_pay13) (accII (chunk A0 b 0) k0_pay14)
    (accJJ (chunk A1 b 0) k0_pay15) (accIJ (chunk A0 b 0) (chunk A1 b 0) k0_pay16)
    (accM (chunk A0 b 0) (chunk A1 b 0) (chunk A2 b 0) (chunk A3 b 0) k0_pay17)

theorem outs_congr (c : Dev nD) (n n' : ℕ) (h : n < cfg0.N) (h' : n' < cfg0.N) (e : n = n') :
    outsAt0 m c n h = outsAt0 m c n' h' := by subst e; rfl

/-- After batch `b`'s second point the output's staging buffer holds the batch's block. -/
theorem outO (c : Dev nD) (b : Fin 16) :
    (outsAt0 m c (tO b).val (tO b).isLt).1
      = batchBlock (F := F) (V m c main_arg0) (V m c main_arg1) (V m c main_arg2) (V m c main_arg3) b := by
  have h1 : (tO b).val % 2 = 1 := by show (2 * b.val + 1) % 2 = 1; omega
  have h0 : ¬ (tO b).val % 2 = 0 := by omega
  have hE : (tE b).val % 2 = 0 := by show (2 * b.val) % 2 = 0; omega
  have hp : ∀ h, outsAt0 m c ((tO b).val - 1) h = outsAt0 m c (tE b).val (tE b).isLt :=
    fun h => outs_congr m c _ _ _ _ (by show 2 * b.val + 1 - 1 = 2 * b.val; omega)
  rw [outsAt0_B m c (tO b) h0 h1]
  dsimp only
  refine (outB (F := F) c _ _ _ _ _ _ _ _ _ _ _ _ _ _ _ _ _ _ _ _ _ _ _ _ _ _ _ _ _ _ _ _ _ _ _).trans ?_
  simp only [hp]
  rw [scrE_0 m c (tE b) hE, scrE_1 m c (tE b) hE, scrE_2 m c (tE b) hE, scrE_3 m c (tE b) hE, scrE_4 m c (tE b) hE,
    scrE_5 m c (tE b) hE]
  have dO : (tO b).val / 2 = b.val := by show (2 * b.val + 1) / 2 = b.val; omega
  have dE : (tE b).val / 2 = b.val := by show (2 * b.val) / 2 = b.val; omega
  rw [iblk0_eq m c (tO b) b 1 dO h1, iblk1_eq m c (tO b) b 1 dO h1, iblk2_eq m c (tO b) b 1 dO h1, iblk3_eq m c (tO b) b 1 dO h1,
    iblk0_eq m c (tE b) b 0 dE hE, iblk1_eq m c (tE b) b 0 dE hE, iblk2_eq m c (tE b) b 0 dE hE, iblk3_eq m c (tE b) b 0 dE hE]
  rfl

/-! ## The region's result array -/

/-- The statistics array: at (b, r, l), entry (0, r, l) of batch `b`'s block. -/
def statsArr (A0 A1 : S16x1x64x128x128.Idx → Elt F .f32) (A2 A3 : S16x1x64x128x128.Idx → Elt F .i32) :
    S16x8x128.Idx → Elt F .f32 :=
  fun i => batchBlock A0 A1 A2 A3 (⟨(i 0).val, (i 0).isLt⟩ : Fin 16)
    (ix3 (0 : Fin 1) (⟨(i 1).val, (i 1).isLt⟩ : Fin 8) (⟨(i 2).val, (i 2).isLt⟩ : Fin 128))

/-- What a point writes back is its block of the statistics array. -/
theorem flushed_eq (c : Dev nD) (t : Fin cfg0.N) (hf : (cfg0.win 4).flush t = true) :
    (dats m 0 c).flushed 4 t = ((cfg0.win 4).blk t).view.read (Elt F)
      (statsArr (F := F) (V m c main_arg0) (V m c main_arg1) (V m c main_arg2) (V m c main_arg3)) := by
  have h1 : t.val % 2 = 1 := (flush0_4 t).mp hf
  have hN : t.val < 32 := lt_of_lt_of_eq t.isLt N_0
  obtain ⟨b, rfl⟩ : ∃ b : Fin 16, t = tO b :=
    ⟨⟨t.val / 2, by omega⟩, Fin.ext (by show t.val = 2 * (t.val / 2) + 1; omega)⟩
  obtain ⟨e0, e1, e2⟩ := idx_out (tO b)
  have dO : (tO b).val / 2 = b.val := by show (2 * b.val + 1) / 2 = b.val; omega
  show (cfg0.win 4).cut (grid0.coords (tO b)) ((dats m 0 c).after 4 (tO b)) = _
  rw [after0_4, outO]
  funext j
  rw [View.read_apply]
  unfold statsArr
  have j0 : (j 0).val < 1 := (j 0).isLt
  refine congr (congrArg (batchBlock (F := F) _ _ _ _) (Fin.ext ?_)) (funext fun a => Fin.ext ?_)
  · show b.val = win0_4.index (tO b) (0 : Fin 3) * 1 + 1 * (j 0).val
    omega
  · match a with
    | ⟨0, _⟩ => show (j 0).val = 0; omega
    | ⟨1, _⟩ => show (j 1).val = win0_4.index (tO b) (1 : Fin 3) * 8 + 1 * (j 1).val; omega
    | ⟨2, _⟩ => show (j 2).val = win0_4.index (tO b) (2 : Fin 3) * 128 + 1 * (j 2).val; omega

/-- An index of the result array is in a point's block iff each coordinate is in the block's range. -/
theorem mem_blk (t : Fin cfg0.N) (i : S16x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v0).slice (win0_4.rect t)).set ↔ _
  rw [View.set_slice_whole, Rect.mem_set_unit]
  exact Iff.rfl

/-- Every index of the result array is in the block written back after the second point of its batch. -/
theorem cover (i : S16x8x128.Idx) :
    ∃ t : Fin cfg0.N, (cfg0.win 4).flush t = true ∧ i ∈ ((cfg0.win 4).blk t).view.set := by
  have hi0 : (i 0).val < 16 := (i 0).isLt
  have hi1 : (i 1).val < 8 := (i 1).isLt
  have hi2 : (i 2).val < 128 := (i 2).isLt
  obtain ⟨e0, e1, e2⟩ := idx_out (tO ⟨(i 0).val, hi0⟩)
  have dO : (tO ⟨(i 0).val, hi0⟩).val / 2 = (i 0).val := by show (2 * (i 0).val + 1) / 2 = (i 0).val; omega
  refine ⟨tO ⟨(i 0).val, hi0⟩, (flush0_4 _).mpr (by show (2 * (i 0).val + 1) % 2 = 1; omega), ?_⟩
  rw [mem_blk]
  intro a
  match a with
  | ⟨0, _⟩ =>
    show win0_4.index (tO ⟨(i 0).val, hi0⟩) (0 : Fin 3) * 1 ≤ (i 0).val
      ∧ (i 0).val < win0_4.index (tO ⟨(i 0).val, hi0⟩) (0 : Fin 3) * 1 + 1
    omega
  | ⟨1, _⟩ =>
    show win0_4.index (tO ⟨(i 0).val, hi0⟩) (1 : Fin 3) * 8 ≤ (i 1).val
      ∧ (i 1).val < win0_4.index (tO ⟨(i 0).val, hi0⟩) (1 : Fin 3) * 8 + 8
    omega
  | ⟨2, _⟩ =>
    show win0_4.index (tO ⟨(i 0).val, hi0⟩) (2 : Fin 3) * 128 ≤ (i 2).val
      ∧ (i 2).val < win0_4.index (tO ⟨(i 0).val, hi0⟩) (2 : Fin 3) * 128 + 128
    omega

/-- The region leaves the statistics array in its result. -/
theorem final (c : Dev nD) :
    (dats m 0 c).arrAt 4 cfg0.N = statsArr (F := F) (V m c main_arg0) (V m c main_arg1) (V m c main_arg2) (V m c main_arg3) :=
  (dats m 0 c).arrAt_eq_of_cover 4 _ (flushed_eq m c) cover

end Cert.KernelIdeal.KValue

end
-- ==== Proof.KernelRead.lean ====
/-
  The kernel's payloads, read at an index over the extended reals.

  A depth-sum of a [32, 128, 128] block at (row, lane) is the sum over the 32 depth coordinates; the accumulators at
  (row, lane) are their previous contents plus such a sum of the block (of its squares, of the product of two blocks,
  of the product of the two element masks); the lane-then-row reduction of a [128, 128] accumulator is the double sum
  over rows and lanes; and the output block's first row starts with the statistic of the six totals and the mask
  total, the two entries the host reads.  Together: entry (b, 0, 0) of the statistics array is batch `b`'s statistic
  with its window sums taken in tile order, and entry (b, 0, 1) the tile-order window sum of the masks' product.
-/
import proofs.«127665_j82222853914696_2_alg».proof.Proof.KernelValue
import proofs.«127665_j82222853914696_2_alg».proof.Proof.NccSpec
import proofs.«127665_j82222853914696_2_alg».proof.Proof.Mask
import Idealize.ShloMosaic.Lib.ValueLayout
import Idealize.ShloMosaic.PureOps.Ideal.Laws

noncomputable section

open Idealize.ShloMosaic Idealize.ShloMosaic.ValueIdx

namespace Cert.KernelIdeal.KRead

open Cert.KernelIdeal Cert.KernelIdeal.Gen Cert.KernelIdeal.Cases Cert.KernelIdeal.KValue
open Cert.NccSpec Cert.NccIdx Cert.NccMask

variable {α : Type}

/-! ## Shape casts at an index -/

theorem cast5_apply (x : S1x1x32x128x128.Idx → α) (h : S1x1x32x128x128.ShapeCasts S32x128x128) (d : Fin 32) (r l : Fin 128) :
    shapeCast S32x128x128 x h (ix3 d r l) = x (ix5 (0 : Fin 1) (0 : Fin 1) d r l) :=
  shapeCast_apply x h _ _ (by
    rw [Shape.rowMajor_val_five, Shape.rowMajor_val_three]
    show ((((0 : Nat) * 1 + 0) * 32 + d.val) * 128 + r.val) * 128 + l.val = (d.val * 128 + r.val) * 128 + l.val
    omega)

theorem castCol_apply (v : S128.Idx → α) (h : S128.ShapeCasts S128x1) (r : Fin 128) (u : Fin 1) :
    shapeCast S128x1 v h (ix2 r u) = v (ix1 r) :=
  shapeCast_apply v h _ _ (by
    rw [Shape.rowMajor_val_one, Shape.rowMajor_val_two]
    show r.val = r.val * 1 + u.val
    have := u.isLt
    omega)

theorem cast11_apply (v : S1.Idx → α) (h : S1.ShapeCasts S1x1) (u w : Fin 1) :
    shapeCast S1x1 v h (ix2 u w) = v (ix1 w) :=
  shapeCast_a_1a_apply v h u w

theorem castBlk_apply (v : S8x128.Idx → α) (h : S8x128.ShapeCasts S1x8x128) (u : Fin 1) (r : Fin 8) (l : Fin 128) :
    shapeCast S1x8x128 v h (ix3 u r l) = v (ix2 r l) :=
  shapeCast_ab_1ab_apply v h u r l

/-! ## Reductions at an index -/

theorem depthSum_apply (v : FVec Ideal S32x128x128 .f32) (h : S32x128x128.Reduces [0] S128x128) (hφ : FKind.Formats .f32)
    (hacc : (0x00000000#32 : BitVec 32) = FKind.add.neutral .f32 hφ) (r l : Fin 128) :
    multiReduction .add [0] S128x128 v 0x00000000#32 h hφ hacc (ix2 r l) = ∑ d : Fin 32, v (ix3 d r l) := by
  refine (Ideal.multiReduction_add_single v 0x00000000#32 h hφ hacc (ix2 r l)).trans ?_
  refine Finset.sum_congr rfl fun d _ => congrArg v ?_
  funext a
  apply Fin.ext
  match a with
  | ⟨0, _⟩ => rfl
  | ⟨1, _⟩ => rfl
  | ⟨2, _⟩ => rfl

theorem laneSum_apply (v : FVec Ideal S128x128 .f32) (h : S128x128.Reduces [1] S128) (hφ : FKind.Formats .f32)
    (hacc : (0x00000000#32 : BitVec 32) = FKind.add.neutral .f32 hφ) (r : Fin 128) :
    multiReduction .add [1] S128 v 0x00000000#32 h hφ hacc (ix1 r) = ∑ l : Fin 128, v (ix2 r l) := by
  refine (Ideal.multiReduction_add_single v 0x00000000#32 h hφ hacc (ix1 r)).trans ?_
  refine Finset.sum_congr rfl fun l _ => congrArg v ?_
  funext a
  apply Fin.ext
  match a with
  | ⟨0, _⟩ => rfl
  | ⟨1, _⟩ => rfl

theorem rowSum_apply (v : FVec Ideal S128x1 .f32) (h : S128x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ r : Fin 128, v (ix2 r (0 : Fin 1)) := by
  refine (Ideal.multiReduction_add_single v 0x00000000#32 h hφ hacc (ix1 u)).trans ?_
  refine Finset.sum_congr rfl fun r _ => congrArg v ?_
  funext a
  apply Fin.ext
  have hu : u.val = 0 := by have := u.isLt; omega
  match a with
  | ⟨0, _⟩ => rfl
  | ⟨1, _⟩ => exact hu

/-- The lane-then-row reduction of an accumulator is the double sum over rows and lanes. -/
theorem total_apply (v : Vec Ideal S128x128 .f32) (u w : Fin 1) :
    k0_pay4 (F := Ideal) v (ix2 u w) = ∑ r : Fin 128, ∑ l : Fin 128, v (ix2 r l) := by
  unfold k0_pay4
  simp only [cast11_apply]
  refine (rowSum_apply _ _ _ _ w).trans ?_
  refine Finset.sum_congr rfl fun r _ => ?_
  rw [castCol_apply]
  exact laneSum_apply _ _ _ _ r

/-! ## The accumulators at (row, lane) -/

theorem accI_apply (x : Vec Ideal S1x1x32x128x128 .f32) (a : Vec Ideal S128x128 .f32) (r l : Fin 128) :
    accI (F := Ideal) x a (ix2 r l) = a (ix2 r l) + ∑ d : Fin 32, x (ix5 (0 : Fin 1) (0 : Fin 1) d r l) := by
  unfold accI k0_pay23 k0_pay19
  simp only [shapeCast_self, addf_apply]
  refine congrArg (a (ix2 r l) + ·) ((depthSum_apply _ _ _ _ r l).trans ?_)
  simp only [cast5_apply]

theorem accJ_apply (x : Vec Ideal S1x1x32x128x128 .f32) (a : Vec Ideal S128x128 .f32) (r l : Fin 128) :
    accJ (F := Ideal) x a (ix2 r l) = a (ix2 r l) + ∑ d : Fin 32, x (ix5 (0 : Fin 1) (0 : Fin 1) d r l) := by
  unfold accJ k0_pay24 k0_pay20
  simp only [shapeCast_self, addf_apply]
  refine congrArg (a (ix2 r l) + ·) ((depthSum_apply _ _ _ _ r l).trans ?_)
  simp only [cast5_apply]

theorem accII_apply (x : Vec Ideal S1x1x32x128x128 .f32) (a : Vec Ideal S128x128 .f32) (r l : Fin 128) :
    accII (F := Ideal) x a (ix2 r l)
      = a (ix2 r l) + ∑ d : Fin 32, x (ix5 (0 : Fin 1) (0 : Fin 1) d r l) * x (ix5 (0 : Fin 1) (0 : Fin 1) d r l) := by
  unfold accII k0_pay25 k0_pay19
  simp only [shapeCast_self, addf_apply]
  refine congrArg (a (ix2 r l) + ·) ((depthSum_apply _ _ _ _ r l).trans ?_)
  simp only [mulf_apply, cast5_apply]

theorem accJJ_apply (x : Vec Ideal S1x1x32x128x128 .f32) (a : Vec Ideal S128x128 .f32) (r l : Fin 128) :
    accJJ (F := Ideal) x a (ix2 r l)
      = a (ix2 r l) + ∑ d : Fin 32, x (ix5 (0 : Fin 1) (0 : Fin 1) d r l) * x (ix5 (0 : Fin 1) (0 : Fin 1) d r l) := by
  unfold accJJ k0_pay26 k0_pay20
  simp only [shapeCast_self, addf_apply]
  refine congrArg (a (ix2 r l) + ·) ((depthSum_apply _ _ _ _ r l).trans ?_)
  simp only [mulf_apply, cast5_apply]

theorem accIJ_apply (x y : Vec Ideal S1x1x32x128x128 .f32) (a : Vec Ideal S128x128 .f32) (r l : Fin 128) :
    accIJ (F := Ideal) x y a (ix2 r l)
      = a (ix2 r l) + ∑ d : Fin 32, x (ix5 (0 : Fin 1) (0 : Fin 1) d r l) * y (ix5 (0 : Fin 1) (0 : Fin 1) d r l) := by
  unfold accIJ k0_pay1 k0_pay27 k0_pay19 k0_pay20
  simp only [shapeCast_self, addf_apply]
  refine congrArg (a (ix2 r l) + ·) ((depthSum_apply _ _ _ _ r l).trans ?_)
  simp only [mulf_apply, cast5_apply]

/-- The kernel's two element masks, at (depth, row, lane) of a block. -/
theorem maskI_apply (x : Vec Ideal S1x1x32x128x128 .f32) (w : Vec Ideal S1x1x32x128x128 .i32) (d : Fin 32) (r l : Fin 128) :
    k0_pay21 (F := Ideal) x w (ix3 d r l)
      = maskE (x (ix5 (0 : Fin 1) (0 : Fin 1) d r l)) (w (ix5 (0 : Fin 1) (0 : Fin 1) d r l)) := by
  have e1 := cast5_apply x shapeCasts_S1x1x32x128x128_S32x128x128 d r l
  have e2 := cast5_apply w shapeCasts_S1x1x32x128x128_S32x128x128 d r l
  rw [← e1, ← e2]
  rfl

theorem maskJ_apply (x : Vec Ideal S1x1x32x128x128 .f32) (w : Vec Ideal S1x1x32x128x128 .i32) (d : Fin 32) (r l : Fin 128) :
    k0_pay22 (F := Ideal) x w (ix3 d r l)
      = maskE (x (ix5 (0 : Fin 1) (0 : Fin 1) d r l)) (w (ix5 (0 : Fin 1) (0 : Fin 1) d r l)) := by
  have e1 := cast5_apply x shapeCasts_S1x1x32x128x128_S32x128x128 d r l
  have e2 := cast5_apply w shapeCasts_S1x1x32x128x128_S32x128x128 d r l
  rw [← e1, ← e2]
  rfl

theorem accM_apply (x y : Vec Ideal S1x1x32x128x128 .f32) (w z : Vec Ideal S1x1x32x128x128 .i32) (a : Vec Ideal S128x128 .f32)
    (r l : Fin 128) :
    accM (F := Ideal) x y w z a (ix2 r l)
      = a (ix2 r l) + ∑ d : Fin 32, maskE (x (ix5 (0 : Fin 1) (0 : Fin 1) d r l)) (w (ix5 (0 : Fin 1) (0 : Fin 1) d r l))
          * maskE (y (ix5 (0 : Fin 1) (0 : Fin 1) d r l)) (z (ix5 (0 : Fin 1) (0 : Fin 1) d r l)) := by
  unfold accM k0_pay2
  simp only [shapeCast_self, addf_apply]
  refine congrArg (a (ix2 r l) + ·) ((depthSum_apply _ _ _ _ r l).trans ?_)
  simp only [mulf_apply, maskI_apply, maskJ_apply]

end Cert.KernelIdeal.KRead

end
-- ==== Proof.KernelRun.lean ====
/-
  The kernel program's run, read.

  After the region the host takes entries (b, 0, 0) and (b, 0, 1) of the statistics array, multiplies them batch by
  batch, sums the sixteen products from zero, negates, and divides by the element count (`tail`).  The generated run
  of the whole program leaves the result buffer at the host operations applied to the region's result array, which is
  the statistics array; the four argument arrays are unchanged.
-/
import proofs.«127665_j82222853914696_2_alg».proof.Proof.KernelValue
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.GenP Cert.KernelIdeal.Cases Cert.KernelIdeal.KValue

variable {F : FTy → Type} [FloatOps F]
variable (m : (ℓ : Loc nD τ sig) → Buf (Elt F) ℓ) (ρ : Dev nD → PrngReg)

/-- The host operations after the region, as one function of the region's result array. -/
def tail (S : S16x8x128.Idx → Elt F .f32) : S_.Idx → Elt F .f32 :=
  Host.divf
    (Host.negf
      (Host.reduceAdd
        (mulf
          (shapeCast S16 (extractStridedSlice S16x1x1 ![0, 0, 0] S slices_S16x8x128_S16x1x1_0_0_0) shapeCasts_S16x1x1_S16)
          (shapeCast S16 (extractStridedSlice S16x1x1 ![0, 0, 1] S slices_S16x8x128_S16x1x1_0_0_1) shapeCasts_S16x1x1_S16))
        (constant S_ .f32 0x00000000#32) reducesTo_S16_S_d0 h_S_))
    (constant S_ .f32 0x4B800000#32)

/-- What the host operations leave in the result buffer: `tail` of the statistics array. -/
theorem tail_eq (c : Dev nD) :
    Pipeline.afterTail₀ cfgs (dats m) 0 (V0 m) [hostOps1] c main_v8 = tail (statsArr (F := F) (V m c main_arg0) (V m c main_arg1) (V m c main_arg2) (V m c main_arg3)) := by
  have e : Pipeline.withArrays (cfgs 0).spec c (V0 m c) (fun w => (dats m 0 c).arrAt w (cfgs 0).N) (Proc.devRef .tc main_v0)
      = statsArr (F := F) (V m c main_arg0) (V m c main_arg1) (V m c main_arg2) (V m c main_arg3) :=
    (Pipeline.withArrays_arr spec0 launch0.win.arr_inj c _ _ 4).trans (final m c)
  unfold Pipeline.afterTail₀
  show StableHlo.after hostOps1 _ (Proc.devRef .tc main_v8) = _
  after_results
  rw [e]
  rfl

/-- The run: the result at `tail` of the statistics array of the argument arrays, the arguments unchanged. -/
theorem run : θ_run defs (onTc (τ := τ) (main (F := F))) ⟨m, fun _ => 0, ρ⟩ fun r => ∀ c : Dev nD,
      r.2.mem ((c.tc : Thread nD τ).loc main_v8) = tail (statsArr (F := F) (V m c main_arg0) (V m c main_arg1) (V m c main_arg2) (V m c main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v8 (Pipeline.mem_restRefs_of main_v8 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KRun

end
-- ==== Proof.KernelBridge.lean ====
/-
  From the kernel's payloads to the specification.

  The output block's first row is [statistic, mask total, 0, …]: the two concatenations are read at lanes 0 and 1.
  Each of the six totals that enter them is a tile-order window sum (`tileSum`) of batch `b`, because the first
  point's accumulators start from the zero block and each point adds the depth-sum of its half.  The host then forms
  `-(0 + Σ_b stats[b,0,0]·stats[b,0,1]) / N`.  So the kernel program's result is `kernelVal` of the argument arrays.
-/
import proofs.«127665_j82222853914696_2_alg».proof.Proof.KernelRead
import proofs.«127665_j82222853914696_2_alg».proof.Proof.KernelRun

noncomputable section

open Idealize.ShloMosaic Idealize.ShloMosaic.ValueIdx

namespace Cert.KernelIdeal.KBridge

open Cert.KernelIdeal Cert.KernelIdeal.Gen Cert.KernelIdeal.Cases Cert.KernelIdeal.KValue Cert.KernelIdeal.KRead
open Cert.KernelIdeal.KRun
open Cert.NccSpec Cert.NccIdx Cert.NccMask

variable {α : Type}

/-! ## Depth halves of a batch, at an index -/

theorem chunk_lo (A : X5.Idx → α) (b : Fin 16) (d : Fin 32) (r l : Fin 128) :
    chunk A b 0 (ix5 (0 : Fin 1) (0 : Fin 1) d r l) = A (ix5 b (0 : Fin 1) (lo d) r l) := by
  unfold chunk
  refine congrArg A (funext fun a => ?_)
  match a with
  | ⟨0, _⟩ => rfl
  | ⟨1, _⟩ => rfl
  | ⟨2, _⟩ => exact Fin.ext (by show 32 * 0 + d.val = d.val; omega)
  | ⟨3, _⟩ => rfl
  | ⟨4, _⟩ => rfl

theorem chunk_hi (A : X5.Idx → α) (b : Fin 16) (d : Fin 32) (r l : Fin 128) :
    chunk A b 1 (ix5 (0 : Fin 1) (0 : Fin 1) d r l) = A (ix5 b (0 : Fin 1) (hi d) r l) := by
  unfold chunk
  refine congrArg A (funext fun a => ?_)
  match a with
  | ⟨0, _⟩ => rfl
  | ⟨1, _⟩ => rfl
  | ⟨2, _⟩ => exact Fin.ext (by show 32 * 1 + d.val = 32 + d.val; omega)
  | ⟨3, _⟩ => rfl
  | ⟨4, _⟩ => rfl

/-- The zero block an accumulator starts from. -/
theorem zero_apply (z : FVec Ideal S128x128 .f32)
    (hz : z = shapeCast S128x128 (broadcast S128x128 (Scalar.ofBits (F := Ideal) .f32 0x00000000#32)) shapeCasts_S128x128_S128x128)
    (r l : Fin 128) : z (ix2 r l) = zc := by
  subst hz
  rw [shapeCast_self]
  rfl

/-! ## The six totals are tile-order window sums -/

theorem tile_I (A : X5.Idx → EReal) (b : Fin 16) (u w : Fin 1) :
    k0_pay4 (F := Ideal) (accI (chunk A b 1) (accI (chunk A b 0) (k0_pay12 (F := Ideal)))) (ix2 u w) = tileSum zc (A) b := by
  refine (total_apply _ u w).trans ?_
  unfold tileSum
  refine Finset.sum_congr rfl fun r _ => Finset.sum_congr rfl fun l _ => ?_
  rw [accI_apply, accI_apply, zero_apply (k0_pay12 (F := Ideal)) rfl]
  simp only [chunk_lo, chunk_hi]

theorem tile_J (A : X5.Idx → EReal) (b : Fin 16) (u w : Fin 1) :
    k0_pay5 (F := Ideal) (accJ (chunk A b 1) (accJ (chunk A b 0) (k0_pay13 (F := Ideal)))) (ix2 u w) = tileSum zc (A) b := by
  refine (total_apply _ u w).trans ?_
  unfold tileSum
  refine Finset.sum_congr rfl fun r _ => Finset.sum_congr rfl fun l _ => ?_
  rw [accJ_apply, accJ_apply, zero_apply (k0_pay13 (F := Ideal)) rfl]
  simp only [chunk_lo, chunk_hi]

theorem tile_II (A : X5.Idx → EReal) (b : Fin 16) (u w : Fin 1) :
    k0_pay6 (F := Ideal) (accII (chunk A b 1) (accII (chunk A b 0) (k0_pay14 (F := Ideal)))) (ix2 u w) = tileSum zc (fun i => A i * A i) b := by
  refine (total_apply _ u w).trans ?_
  unfold tileSum
  refine Finset.sum_congr rfl fun r _ => Finset.sum_congr rfl fun l _ => ?_
  rw [accII_apply, accII_apply, zero_apply (k0_pay14 (F := Ideal)) rfl]
  simp only [chunk_lo, chunk_hi]

theorem tile_JJ (A : X5.Idx → EReal) (b : Fin 16) (u w : Fin 1) :
    k0_pay7 (F := Ideal) (accJJ (chunk A b 1) (accJJ (chunk A b 0) (k0_pay15 (F := Ideal)))) (ix2 u w) = tileSum zc (fun i => A i * A i) b := by
  refine (total_apply _ u w).trans ?_
  unfold tileSum
  refine Finset.sum_congr rfl fun r _ => Finset.sum_congr rfl fun l _ => ?_
  rw [accJJ_apply, accJJ_apply, zero_apply (k0_pay15 (F := Ideal)) rfl]
  simp only [chunk_lo, chunk_hi]

theorem tile_IJ (A B : X5.Idx → EReal) (b : Fin 16) (u w : Fin 1) :
    k0_pay8 (F := Ideal) (accIJ (chunk A b 1) (chunk B b 1) (accIJ (chunk A b 0) (chunk B b 0) (k0_pay16 (F := Ideal)))) (ix2 u w) = tileSum zc (fun i => A i * B i) b := by
  refine (total_apply _ u w).trans ?_
  unfold tileSum
  refine Finset.sum_congr rfl fun r _ => Finset.sum_congr rfl fun l _ => ?_
  rw [accIJ_apply, accIJ_apply, zero_apply (k0_pay16 (F := Ideal)) rfl]
  simp only [chunk_lo, chunk_hi]

theorem tile_M (A B : X5.Idx → EReal) (C D : X5.Idx → BitVec 32) (b : Fin 16) (u w : Fin 1) :
    k0_pay9 (F := Ideal) (accM (chunk A b 1) (chunk B b 1) (chunk C b 1) (chunk D b 1) (accM (chunk A b 0) (chunk B b 0) (chunk C b 0) (chunk D b 0) (k0_pay17 (F := Ideal)))) (ix2 u w) = tileSum zc (fun i => maskE (A i) (C i) * maskE (B i) (D i)) b := by
  refine (total_apply _ u w).trans ?_
  unfold tileSum
  refine Finset.sum_congr rfl fun r _ => Finset.sum_congr rfl fun l _ => ?_
  rw [accM_apply, accM_apply, zero_apply (k0_pay17 (F := Ideal)) rfl]
  simp only [chunk_lo, chunk_hi]

/-! ## The output block's first row -/

/-- Lane 0 of the first row is the statistic of the totals; the two means enter as the totals over the window size. -/
theorem block_cc (s1 s2 s11 s22 s12 sM : FVec Ideal S1x1 .f32) (u : Fin 1) :
    k0_pay3 (F := Ideal) s1 s2 s11 s22 s12 sM
        (divf s1 (broadcast S1x1 (Scalar.ofBits (F := Ideal) .f32 0x49800000#32)))
        (divf s2 (broadcast S1x1 (Scalar.ofBits (F := Ideal) .f32 0x49800000#32)))
        (ix3 u (0 : Fin 8) (0 : Fin 128))
      = stat (s1 (ix2 (0 : Fin 1) (0 : Fin 1))) (s2 (ix2 (0 : Fin 1) (0 : Fin 1))) (s11 (ix2 (0 : Fin 1) (0 : Fin 1)))
          (s22 (ix2 (0 : Fin 1) (0 : Fin 1))) (s12 (ix2 (0 : Fin 1) (0 : Fin 1))) := by
  unfold k0_pay3
  simp only [castBlk_apply]
  rw [concatenate_pair_apply_left (t := S8x128) (s₁ := S1x128) (s₂ := S7x128) (0 : Fin 2) _ _ _
    (ix2 (0 : Fin 8) (0 : Fin 128)) rfl (ix2 (0 : Fin 1) (0 : Fin 128))
    (fun b => by match b with | ⟨0, _⟩ => rfl | ⟨1, _⟩ => rfl)]
  rw [concatenate_apply_piece (t := S1x128) (1 : Fin 2) [⟨S1x1, _⟩, ⟨S1x1, _⟩, ⟨S1x126, _⟩] _
    (ix2 (0 : Fin 1) (0 : Fin 128)) 0 (show (0 : ℕ) < 3 by decide) S1x1 _ rfl rfl 0 rfl
    (ix2 (0 : Fin 1) (0 : Fin 1)) (fun b hb => by match b with | ⟨0, _⟩ => rfl | ⟨1, _⟩ => exact absurd rfl hb) rfl]
  rfl

/-- Lane 1 of the first row is the mask total. -/
theorem block_M (s1 s2 s11 s22 s12 sM u1 u2 : FVec Ideal S1x1 .f32) (u : Fin 1) :
    k0_pay3 (F := Ideal) s1 s2 s11 s22 s12 sM u1 u2 (ix3 u (0 : Fin 8) (1 : Fin 128)) = sM (ix2 (0 : Fin 1) (0 : Fin 1)) := by
  unfold k0_pay3
  simp only [castBlk_apply]
  rw [concatenate_pair_apply_left (t := S8x128) (s₁ := S1x128) (s₂ := S7x128) (0 : Fin 2) _ _ _
    (ix2 (0 : Fin 8) (1 : Fin 128)) rfl (ix2 (0 : Fin 1) (1 : Fin 128))
    (fun b => by match b with | ⟨0, _⟩ => rfl | ⟨1, _⟩ => rfl)]
  rw [concatenate_apply_piece (t := S1x128) (1 : Fin 2) [⟨S1x1, _⟩, ⟨S1x1, _⟩, ⟨S1x126, _⟩] _
    (ix2 (0 : Fin 1) (1 : Fin 128)) 1 (show (1 : ℕ) < 3 by decide) S1x1 _ rfl rfl 1 rfl
    (ix2 (0 : Fin 1) (0 : Fin 1)) (fun b hb => by match b with | ⟨0, _⟩ => rfl | ⟨1, _⟩ => exact absurd rfl hb) rfl]

/-! ## The two entries of the statistics array the host reads -/

theorem stats_cc (A0 A1 : X5.Idx → EReal) (A2 A3 : X5.Idx → BitVec 32) (b : Fin 16) :
    statsArr (F := Ideal) A0 A1 A2 A3 (ix3 b (0 : Fin 8) (0 : Fin 128)) = batchStat (tileSum zc) A0 A1 b := by
  unfold batchStat
  rw [← tile_I A0 b 0 0, ← tile_J A1 b 0 0, ← tile_II A0 b 0 0, ← tile_JJ A1 b 0 0, ← tile_IJ A0 A1 b 0 0]
  unfold statsArr batchBlock blockOf
  exact block_cc _ _ _ _ _ _ 0

theorem stats_M (A0 A1 : X5.Idx → EReal) (A2 A3 : X5.Idx → BitVec 32) (b : Fin 16) :
    statsArr (F := Ideal) A0 A1 A2 A3 (ix3 b (0 : Fin 8) (1 : Fin 128))
      = tileSum zc (fun i => maskE (A0 i) (A2 i) * maskE (A1 i) (A3 i)) b := by
  rw [← tile_M A0 A1 A2 A3 b 0 0]
  unfold statsArr batchBlock blockOf
  exact block_M _ _ _ _ _ _ _ _ 0

/-! ## The host operations after the region, over the extended reals -/

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem cast16_apply (v : S16x1x1.Idx → α) (h : S16x1x1.ShapeCasts S16) (b : Fin 16) :
    shapeCast S16 v h (ix1 b) = v (ix3 b (0 : Fin 1) (0 : Fin 1)) :=
  shapeCast_apply v h _ _ (by
    rw [Shape.rowMajor_val_three, Shape.rowMajor_val_one]
    show (b.val * 1 + 0) * 1 + 0 = b.val
    omega)

theorem slice_lane_apply (S : S16x8x128.Idx → α) (c : Fin 128) (h : S16x8x128.Slices ![0, 0, c.val] S16x1x1) (b : Fin 16) :
    extractStridedSlice S16x1x1 ![0, 0, c.val] S h (ix3 b (0 : Fin 1) (0 : Fin 1)) = S (ix3 b (0 : Fin 8) c) :=
  extractStridedSlice_apply _ S h _ (ix3 b (0 : Fin 8) c) (fun a => by
    match a with
    | ⟨0, _⟩ => show b.val = 0 + b.val; omega
    | ⟨1, _⟩ => rfl
    | ⟨2, _⟩ => show c.val = c.val + 0; omega)

theorem tail_apply (S : S16x8x128.Idx → EReal) (k : S_.Idx) :
    tail (F := Ideal) S k
      = Ideal.div (-(zc + ∑ b : Fin 16, S (ix3 b (0 : Fin 8) (0 : Fin 128)) * S (ix3 b (0 : Fin 8) (1 : Fin 128)))) Nc := by
  unfold tail
  simp only [Host.divf, Host.negf, Host.reduceAdd, Ideal.hostDivf_def, Ideal.hostNegf_def, Ideal.negf_def,
    Ideal.hostReduceAdd_def]
  rw [Ideal.hostReduceAdd_total reducesTo_S16_S_d0 (fun b => b.elim0), sum_idx1]
  simp only [mulf_apply, cast16_apply]
  have s0 : ∀ b : Fin 16, extractStridedSlice S16x1x1 ![0, 0, 0] S slices_S16x8x128_S16x1x1_0_0_0
      (ix3 b (0 : Fin 1) (0 : Fin 1)) = S (ix3 b (0 : Fin 8) (0 : Fin 128)) := fun b => slice_lane_apply S 0 _ b
  have s1 : ∀ b : Fin 16, extractStridedSlice S16x1x1 ![0, 0, 1] S slices_S16x8x128_S16x1x1_0_0_1
      (ix3 b (0 : Fin 1) (0 : Fin 1)) = S (ix3 b (0 : Fin 8) (1 : Fin 128)) := fun b => slice_lane_apply S 1 _ b
  simp only [s0, s1]
  rfl

/-- The kernel program's result is `kernelVal` of the argument arrays. -/
theorem kernel_eq (A0 A1 : X5.Idx → EReal) (A2 A3 : X5.Idx → BitVec 32) :
    tail (F := Ideal) (statsArr (F := Ideal) A0 A1 A2 A3)
      = fun _ => kernelVal A0 A1 (fun i => maskE (A0 i) (A2 i)) (fun i => maskE (A1 i) (A3 i)) := by
  funext k
  rw [tail_apply]
  unfold kernelVal
  simp only [stats_cc, stats_M]

end Cert.KernelIdeal.KBridge

end
-- ==== Proof.lean ====
/-
  The certificate of a normalized-cross-correlation loss kernel against its reference.

  Both programs take two float volumes I, J and two integer label volumes of shape [16, 1, 64, 128, 128].  Per batch b
  they form the five window sums Σ I, Σ J, Σ I², Σ J², Σ I·J over the batch's 64·128·128 = 2^20 points and from them
  cc_b = cross² / (var_I · var_J + ε), with cross = Σ IJ − ū_J Σ I − ū_I Σ J + ū_I ū_J · 2^20 and
  var_I = Σ I² − 2 ū_I Σ I + ū_I² · 2^20 (ū = Σ / 2^20), and two element masks p, q ∈ {0, 1}.

  The kernel walks a grid of two points per batch (two depth halves), keeping six [128, 128] accumulators that start
  from zero at the first half; at the second half it reduces them over lanes and rows, writes [cc_b, Σ p·q, 0, …]
  into the batch's output block, and the host returns −(Σ_b cc_b · Σ_e p·q) / 2^24.  The reference returns
  (Σ_{b,e} ((−cc_b)·q)·p) / 2^24.  The two agree over the extended reals once every cc_b is finite: sums may be taken
  in any order, and a finite factor and a sign move through a sum.  For finite inputs cc_b is finite because each
  variance expression equals Σ x² − (Σ x)²/2^20 ≥ 0 (Cauchy–Schwarz; 2^20 is the exact number of points), so the
  denominator is at least ε > 0.

  Modules: RealSums (the real inequalities), LibIdxSums (sums over array indices), Consts (the float constants),
  NccSpec (the statistic, the two results and their equality `bridge`), Mask (the element mask), Finite (the
  precondition read back), RefValue (the reference's result is `refVal`), KernelCases / KernelValue / KernelRun (the
  kernel's region leaves the statistics array; its host tail), KernelRead / KernelBridge (the kernel's result is
  `kernelVal`), and the two frame modules.
-/
import proofs.«127665_j82222853914696_2_alg».proof.Defs
import proofs.«127665_j82222853914696_2_alg».proof.Proof.Gen.Kernel
import proofs.«127665_j82222853914696_2_alg».proof.Proof.Gen.Kernel.Skeleton
import proofs.«127665_j82222853914696_2_alg».proof.Proof.Gen.Kernel.Launch
import proofs.«127665_j82222853914696_2_alg».proof.Proof.Gen.Kernel.Points
import proofs.«127665_j82222853914696_2_alg».proof.Proof.KernelFrameP
import proofs.«127665_j82222853914696_2_alg».proof.Proof.Gen.KernelIdeal
import proofs.«127665_j82222853914696_2_alg».proof.Proof.Gen.KernelIdeal.Skeleton
import proofs.«127665_j82222853914696_2_alg».proof.Proof.Gen.KernelIdeal.Launch
import proofs.«127665_j82222853914696_2_alg».proof.Proof.Gen.KernelIdeal.Points
import proofs.«127665_j82222853914696_2_alg».proof.Proof.KernelIdealFrameP
import proofs.«127665_j82222853914696_2_alg».proof.Proof.Gen.ReferenceIdeal
import proofs.«127665_j82222853914696_2_alg».proof.Proof.Gen.Pre_finite_inputs
import proofs.«127665_j82222853914696_2_alg».proof.Proof.Gen.ReferenceIdeal.Run
import proofs.«127665_j82222853914696_2_alg».proof.Proof.Gen.ReferenceIdeal.Read
import proofs.«127665_j82222853914696_2_alg».proof.Proof.Finite
import proofs.«127665_j82222853914696_2_alg».proof.Proof.RefValue
import proofs.«127665_j82222853914696_2_alg».proof.Proof.KernelBridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to idealize it. -/
theorem preserves : Cert.preserves_Kernel_KernelIdeal := trivial

/-- Over the extended reals, from finite inputs, the kernel's result `−(Σ_b cc_b · Σ_e p·q) / 2^24` and the reference's
    `(Σ_{b,e} ((−cc_b)·q)·p) / 2^24` are one number. -/
theorem algebraic : Cert.algebraic_KernelIdeal_ReferenceIdeal := by
  intro m ρ m' ρ' hpre hagree
  refine ⟨fun c => Cert.KernelIdeal.KRun.tail (F := Ideal) (Cert.KernelIdeal.KValue.statsArr (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hI, hJ⟩ := Cert.NccFinite.real_of_pre _ _ _ _ (hpre c)
  rw [Cert.ReferenceIdeal.Read.val_main_v65_eq, Cert.ReferenceIdeal.RefValue.ref_eq, (hagree c).1, (hagree c).2.1,
    (hagree c).2.2.1, (hagree c).2.2.2]
  refine Eq.trans ?_ (Cert.KernelIdeal.KBridge.kernel_eq _ _ _ _).symm
  funext _
  exact (Cert.NccSpec.bridge _ _ _ _ hI hJ (fun i => Cert.NccMask.maskE_real _ _) (fun i => Cert.NccMask.maskE_real _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
